-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x64 : Shape := ⟨2, ![2048, 64]⟩
abbrev S2000000 : Shape := ⟨1, ![2000000]⟩
abbrev S16384 : Shape := ⟨1, ![16384]⟩
abbrev S_ : Shape := ⟨0, ![]⟩

class Facts : Prop where
  bcast_S_S2048x64 : S_.BroadcastsInDim S2048x64 (![] : Fin 0 → Fin S2048x64.rank)
  reducesTo_S2048x64_S_d0_1 : S2048x64.ReducesTo [0, 1] S_
  h_S_ : 0 < S_.numel
  bcast_S_S2000000 : S_.BroadcastsInDim S2000000 (![] : Fin 0 → Fin S2000000.rank)
  reducesTo_S2000000_S_d0 : S2000000.ReducesTo [0] S_

variable [Facts]

def fn {F : FTy → Type} [FloatOps F] (main_arg0 : FVec F S2048x64 .f32) (main_arg1 : FVec F S2048x64 .f32) (main_arg2 : FVec F S2000000 .f32) (main_arg3 : IVec S2000000 32) (main_arg4 : IVec S2000000 32) (main_arg5 : IVec S16384 32) (main_arg6 : IVec S16384 32) : IVec S_ 1 :=
  let main_v0 : FVec F S2048x64 .f32 := Host.absf main_arg0
  let main_cst : FVec F S_ .f32 := constant S_ .f32 0x7F800000#32
  let main_v1 : FVec F S2048x64 .f32 := broadcastInDim S2048x64 ![] bcast_S_S2048x64 main_cst
  let main_v2 : IVec S2048x64 1 := cmpf .olt main_v0 main_v1
  let main_c : IVec S_ 1 := constantI S_ 1 1#1
  let main_v3 : IVec S_ 1 := (fun x v => Host.reduce IntOp.andi x v reducesTo_S2048x64_S_d0_1 h_S_) main_v2 main_c
  let main_v4 : FVec F S2048x64 .f32 := Host.absf main_arg1
  let main_cst_0 : FVec F S_ .f32 := constant S_ .f32 0x7F800000#32
  let main_v5 : FVec F S2048x64 .f32 := broadcastInDim S2048x64 ![] bcast_S_S2048x64 main_cst_0
  let main_v6 : IVec S2048x64 1 := cmpf .olt main_v4 main_v5
  let main_c_1 : IVec S_ 1 := constantI S_ 1 1#1
  let main_v7 : IVec S_ 1 := (fun x v => Host.reduce IntOp.andi x v reducesTo_S2048x64_S_d0_1 h_S_) main_v6 main_c_1
  let main_v8 : IVec S_ 1 := andi main_v3 main_v7
  let main_v9 : FVec F S2000000 .f32 := Host.absf main_arg2
  let main_cst_2 : FVec F S_ .f32 := constant S_ .f32 0x7F800000#32
  let main_v10 : FVec F S2000000 .f32 := broadcastInDim S2000000 ![] bcast_S_S2000000 main_cst_2
  let main_v11 : IVec S2000000 1 := cmpf .olt main_v9 main_v10
  let main_c_3 : IVec S_ 1 := constantI S_ 1 1#1
  let main_v12 : IVec S_ 1 := (fun x v => Host.reduce IntOp.andi x v reducesTo_S2000000_S_d0 h_S_) main_v11 main_c_3
  let main_v13 : IVec S_ 1 := andi main_v8 main_v12
  main_v13
-- ==== Kernel.lean ====
abbrev S2048x64 : Shape := ⟨2, ![2048, 64]⟩
abbrev S2000000 : Shape := ⟨1, ![2000000]⟩
abbrev S16384 : Shape := ⟨1, ![16384]⟩
abbrev S100000 : Shape := ⟨1, ![100000]⟩
abbrev S_ : Shape := ⟨0, ![]⟩
abbrev S100000x1 : Shape := ⟨2, ![100000, 1]⟩
abbrev S100000x64 : Shape := ⟨2, ![100000, 64]⟩
abbrev S2000000x1 : Shape := ⟨2, ![2000000, 1]⟩
abbrev S2000000x64 : Shape := ⟨2, ![2000000, 64]⟩
abbrev S100352x64 : Shape := ⟨2, ![100352, 64]⟩
abbrev S16384x1 : Shape := ⟨2, ![16384, 1]⟩
abbrev S16384x64 : Shape := ⟨2, ![16384, 64]⟩
abbrev S2048x1 : Shape := ⟨2, ![2048, 1]⟩
abbrev S2048 : Shape := ⟨1, ![2048]⟩

abbrev nBuf : Space → Nat
  | .hbm => 152
  | .vmem => 16
  | .smem => 0
  | _ => 0

abbrev hbmTy0_0 (i : Nat) : BufTy := match i % 128 with
  | 0 => ⟨S2048x64, .f32⟩
  | 1 => ⟨S2048x64, .f32⟩
  | 2 => ⟨S2000000, .f32⟩
  | 3 => ⟨S2000000, .i32⟩
  | 4 => ⟨S2000000, .i32⟩
  | 5 => ⟨S16384, .i32⟩
  | 6 => ⟨S16384, .i32⟩
  | 7 => ⟨S100000, .i32⟩
  | 8 => ⟨S_, .i32⟩
  | 9 => ⟨S_, .i32⟩
  | 10 => ⟨S100000, .i32⟩
  | 11 => ⟨S100000, .i32⟩
  | 12 => ⟨S100000, .i32⟩
  | 13 => ⟨S_, .i32⟩
  | 14 => ⟨S100000, .i32⟩
  | 15 => ⟨S100000, .i1⟩
  | 16 => ⟨S100000, .i32⟩
  | 17 => ⟨S100000, .i32⟩
  | 18 => ⟨S_, .i32⟩
  | 19 => ⟨S100000, .i32⟩
  | 20 => ⟨S100000, .i1⟩
  | 21 => ⟨S100000, .i1⟩
  | 22 => ⟨S_, .i32⟩
  | 23 => ⟨S100000, .i32⟩
  | 24 => ⟨S100000, .i32⟩
  | 25 => ⟨S100000, .i32⟩
  | 26 => ⟨S_, .i32⟩
  | 27 => ⟨S_, .i32⟩
  | 28 => ⟨S_, .i32⟩
  | 29 => ⟨S_, .i1⟩
  | 30 => ⟨S_, .i32⟩
  | 31 => ⟨S_, .i32⟩
  | 32 => ⟨S100000, .i32⟩
  | 33 => ⟨S100000, .i32⟩
  | 34 => ⟨S_, .i32⟩
  | 35 => ⟨S100000, .i32⟩
  | 36 => ⟨S100000, .i1⟩
  | 37 => ⟨S_, .i32⟩
  | 38 => ⟨S100000, .i32⟩
  | 39 => ⟨S100000, .i1⟩
  | 40 => ⟨S_, .i32⟩
  | 41 => ⟨S_, .i1⟩
  | 42 => ⟨S100000, .i1⟩
  | 43 => ⟨S100000, .i1⟩
  | 44 => ⟨S100000, .i1⟩
  | 45 => ⟨S100000, .i32⟩
  | 46 => ⟨S100000, .i32⟩
  | 47 => ⟨S100000, .i32⟩
  | 48 => ⟨S_, .i32⟩
  | 49 => ⟨S100000, .i32⟩
  | 50 => ⟨S100000, .i1⟩
  | 51 => ⟨S_, .i32⟩
  | 52 => ⟨S100000, .i32⟩
  | 53 => ⟨S100000, .i32⟩
  | 54 => ⟨S100000, .i32⟩
  | 55 => ⟨S100000x1, .i32⟩
  | 56 => ⟨S100000x64, .f32⟩
  | 57 => ⟨S_, .i32⟩
  | 58 => ⟨S100000, .i32⟩
  | 59 => ⟨S100000, .i1⟩
  | 60 => ⟨S_, .i32⟩
  | 61 => ⟨S100000, .i32⟩
  | 62 => ⟨S100000, .i32⟩
  | 63 => ⟨S100000, .i32⟩
  | 64 => ⟨S100000x1, .i32⟩
  | 65 => ⟨S100000x64, .f32⟩
  | 66 => ⟨S100000x64, .f32⟩
  | 67 => ⟨S_, .i32⟩
  | 68 => ⟨S2000000, .i32⟩
  | 69 => ⟨S2000000, .i1⟩
  | 70 => ⟨S_, .i32⟩
  | 71 => ⟨S2000000, .i32⟩
  | 72 => ⟨S2000000, .i32⟩
  | 73 => ⟨S2000000, .i32⟩
  | 74 => ⟨S2000000x1, .i32⟩
  | 75 => ⟨S2000000x64, .f32⟩
  | 76 => ⟨S2000000x1, .f32⟩
  | 77 => ⟨S2000000x64, .f32⟩
  | 78 => ⟨S2000000x64, .f32⟩
  | 79 => ⟨S_, .f32⟩
  | 80 => ⟨S100000x64, .f32⟩
  | 81 => ⟨S2000000x1, .i32⟩
  | 82 => ⟨S100000x64, .f32⟩
  | 83 => ⟨S_, .i32⟩
  | 84 => ⟨S2000000, .i32⟩
  | 85 => ⟨S2000000, .i1⟩
  | 86 => ⟨S_, .i32⟩
  | 87 => ⟨S2000000, .i32⟩
  | 88 => ⟨S2000000, .i32⟩
  | 89 => ⟨S2000000, .i32⟩
  | 90 => ⟨S2000000x1, .i32⟩
  | 91 => ⟨S2000000x64, .f32⟩
  | 92 => ⟨S2000000x1, .f32⟩
  | 93 => ⟨S2000000x64, .f32⟩
  | 94 => ⟨S2000000x64, .f32⟩
  | 95 => ⟨S_, .f32⟩
  | 96 => ⟨S100000x64, .f32⟩
  | 97 => ⟨S2000000x1, .i32⟩
  | 98 => ⟨S100000x64, .f32⟩
  | 99 => ⟨S_, .i32⟩
  | 100 => ⟨S2000000, .i32⟩
  | 101 => ⟨S2000000, .i1⟩
  | 102 => ⟨S_, .i32⟩
  | 103 => ⟨S2000000, .i32⟩
  | 104 => ⟨S2000000, .i32⟩
  | 105 => ⟨S2000000, .i32⟩
  | 106 => ⟨S2000000x1, .i32⟩
  | 107 => ⟨S2000000x64, .f32⟩
  | 108 => ⟨S2000000x1, .f32⟩
  | 109 => ⟨S2000000x64, .f32⟩
  | 110 => ⟨S2000000x64, .f32⟩
  | 111 => ⟨S_, .f32⟩
  | 112 => ⟨S100000x64, .f32⟩
  | 113 => ⟨S2000000x1, .i32⟩
  | 114 => ⟨S100000x64, .f32⟩
  | 115 => ⟨S_, .i32⟩
  | 116 => ⟨S_, .f32⟩
  | 117 => ⟨S100352x64, .f32⟩
  | 118 => ⟨S_, .i32⟩
  | 119 => ⟨S_, .f32⟩
  | 120 => ⟨S100352x64, .f32⟩
  | 121 => ⟨S_, .i32⟩
  | 122 => ⟨S_, .f32⟩
  | 123 => ⟨S100352x64, .f32⟩
  | 124 => ⟨S_, .i32⟩
  | 125 => ⟨S_, .f32⟩
  | 126 => ⟨S100352x64, .f32⟩
  | 127 => ⟨S100352x64, .f32⟩
  | _ => ⟨S2048x64, .f32⟩

abbrev hbmTy0_1 (i : Nat) : BufTy := match i % 128 with
  | 0 => ⟨S100000x64, .f32⟩
  | 1 => ⟨S_, .i32⟩
  | 2 => ⟨S16384, .i32⟩
  | 3 => ⟨S16384, .i1⟩
  | 4 => ⟨S_, .i32⟩
  | 5 => ⟨S16384, .i32⟩
  | 6 => ⟨S16384, .i32⟩
  | 7 => ⟨S16384, .i32⟩
  | 8 => ⟨S16384x1, .i32⟩
  | 9 => ⟨S16384x64, .f32⟩
  | 10 => ⟨S_, .i32⟩
  | 11 => ⟨S16384, .i32⟩
  | 12 => ⟨S16384, .i32⟩
  | 13 => ⟨S_, .i32⟩
  | 14 => ⟨S16384, .i32⟩
  | 15 => ⟨S16384, .i1⟩
  | 16 => ⟨S_, .i32⟩
  | 17 => ⟨S16384, .i32⟩
  | 18 => ⟨S16384, .i32⟩
  | 19 => ⟨S16384, .i32⟩
  | 20 => ⟨S16384x1, .i32⟩
  | 21 => ⟨S16384x64, .f32⟩
  | 22 => ⟨S16384x1, .f32⟩
  | 23 => ⟨S16384, .f32⟩
  | _ => ⟨S2048x64, .f32⟩

abbrev hbmTy (i : Nat) : BufTy := match i / 128 with
  | 0 => hbmTy0_0 i
  | 1 => hbmTy0_1 i
  | _ => ⟨S2048x64, .f32⟩

abbrev bufTy : (tb : Table) → Fin (tcTables nBuf tb) → BufTy
  | .hbm, ⟨i, _⟩ => hbmTy i
  | .local _ .vmem, ⟨0, _⟩ => ⟨S2048x64, .f32⟩
  | .local _ .vmem, ⟨1, _⟩ => ⟨S2048x64, .f32⟩
  | .local _ .vmem, ⟨2, _⟩ => ⟨S2048x64, .f32⟩
  | .local _ .vmem, ⟨3, _⟩ => ⟨S2048x64, .f32⟩
  | .local _ .vmem, ⟨4, _⟩ => ⟨S2048x64, .f32⟩
  | .local _ .vmem, ⟨5, _⟩ => ⟨S2048x64, .f32⟩
  | .local _ .vmem, ⟨6, _⟩ => ⟨S2048x64, .f32⟩
  | .local _ .vmem, ⟨7, _⟩ => ⟨S2048x64, .f32⟩
  | .local _ .vmem, ⟨8, _⟩ => ⟨S2048x64, .f32⟩
  | .local _ .vmem, ⟨9, _⟩ => ⟨S2048x64, .f32⟩
  | .local _ .vmem, ⟨10, _⟩ => ⟨S2048x64, .f32⟩
  | .local _ .vmem, ⟨11, _⟩ => ⟨S2048x64, .f32⟩
  | .local _ .vmem, ⟨12, _⟩ => ⟨S2048x64, .f32⟩
  | .local _ .vmem, ⟨13, _⟩ => ⟨S2048x64, .f32⟩
  | .local _ .vmem, ⟨14, _⟩ => ⟨S2048x1, .f32⟩
  | .local _ .vmem, ⟨15, _⟩ => ⟨S2048x1, .f32⟩
  | _, _ => ⟨S2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v1 : Ref sig .tc := ⟨.hbm, 25, rfl⟩
abbrev main_c_0 : Ref sig .tc := ⟨.hbm, 26, rfl⟩
abbrev main_call1_v0 : Ref sig .tc := ⟨.hbm, 27, rfl⟩
abbrev main_call1_c : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_c_1 : Ref sig .tc := ⟨.hbm, 34, rfl⟩
abbrev main_call1_v5 : Ref sig .tc := ⟨.hbm, 35, rfl⟩
abbrev main_call1_v6 : Ref sig .tc := ⟨.hbm, 36, rfl⟩
abbrev main_call1_c_2 : Ref sig .tc := ⟨.hbm, 37, rfl⟩
abbrev main_call1_v7 : Ref sig .tc := ⟨.hbm, 38, rfl⟩
abbrev main_call1_v8 : Ref sig .tc := ⟨.hbm, 39, rfl⟩
abbrev main_call1_c_3 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_v2 : Ref sig .tc := ⟨.hbm, 47, rfl⟩
abbrev main_c_1 : Ref sig .tc := ⟨.hbm, 48, rfl⟩
abbrev main_v3 : Ref sig .tc := ⟨.hbm, 49, rfl⟩
abbrev main_v4 : Ref sig .tc := ⟨.hbm, 50, rfl⟩
abbrev main_c_2 : Ref sig .tc := ⟨.hbm, 51, rfl⟩
abbrev main_v5 : Ref sig .tc := ⟨.hbm, 52, rfl⟩
abbrev main_v6 : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_c_3 : Ref sig .tc := ⟨.hbm, 57, rfl⟩
abbrev main_v10 : Ref sig .tc := ⟨.hbm, 58, rfl⟩
abbrev main_v11 : Ref sig .tc := ⟨.hbm, 59, rfl⟩
abbrev main_c_4 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_c_5 : Ref sig .tc := ⟨.hbm, 67, rfl⟩
abbrev main_v18 : Ref sig .tc := ⟨.hbm, 68, rfl⟩
abbrev main_v19 : Ref sig .tc := ⟨.hbm, 69, rfl⟩
abbrev main_c_6 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_cst : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_c_7 : Ref sig .tc := ⟨.hbm, 83, rfl⟩
abbrev main_v31 : Ref sig .tc := ⟨.hbm, 84, rfl⟩
abbrev main_v32 : Ref sig .tc := ⟨.hbm, 85, rfl⟩
abbrev main_c_8 : Ref sig .tc := ⟨.hbm, 86, rfl⟩
abbrev main_v33 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_cst_9 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_c_10 : Ref sig .tc := ⟨.hbm, 99, rfl⟩
abbrev main_v44 : Ref sig .tc := ⟨.hbm, 100, rfl⟩
abbrev main_v45 : Ref sig .tc := ⟨.hbm, 101, rfl⟩
abbrev main_c_11 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_cst_12 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_c_13 : Ref sig .tc := ⟨.hbm, 115, rfl⟩
abbrev main_call2_v0 : Ref sig .tc := ⟨.hbm, 116, rfl⟩
abbrev main_v57 : Ref sig .tc := ⟨.hbm, 117, rfl⟩
abbrev main_c_14 : Ref sig .tc := ⟨.hbm, 118, rfl⟩
abbrev main_call3_v0 : Ref sig .tc := ⟨.hbm, 119, rfl⟩
abbrev main_v58 : Ref sig .tc := ⟨.hbm, 120, rfl⟩
abbrev main_c_15 : Ref sig .tc := ⟨.hbm, 121, rfl⟩
abbrev main_call4_v0 : Ref sig .tc := ⟨.hbm, 122, rfl⟩
abbrev main_v59 : Ref sig .tc := ⟨.hbm, 123, rfl⟩
abbrev main_c_16 : Ref sig .tc := ⟨.hbm, 124, rfl⟩
abbrev main_call5_v0 : Ref sig .tc := ⟨.hbm, 125, rfl⟩
abbrev main_v60 : Ref sig .tc := ⟨.hbm, 126, rfl⟩
abbrev main_v61 : Ref sig .tc := ⟨.hbm, 127, rfl⟩
abbrev main_v62 : Ref sig .tc := ⟨.hbm, 128, rfl⟩
abbrev main_c_17 : Ref sig .tc := ⟨.hbm, 129, rfl⟩
abbrev main_v63 : Ref sig .tc := ⟨.hbm, 130, rfl⟩
abbrev main_v64 : Ref sig .tc := ⟨.hbm, 131, rfl⟩
abbrev main_c_18 : Ref sig .tc := ⟨.hbm, 132, rfl⟩
abbrev main_v65 : Ref sig .tc := ⟨.hbm, 133, rfl⟩
abbrev main_v66 : Ref sig .tc := ⟨.hbm, 134, rfl⟩
abbrev main_v67 : Ref sig .tc := ⟨.hbm, 135, rfl⟩
abbrev main_v68 : Ref sig .tc := ⟨.hbm, 136, rfl⟩
abbrev main_v69 : Ref sig .tc := ⟨.hbm, 137, rfl⟩
abbrev main_c_19 : Ref sig .tc := ⟨.hbm, 138, rfl⟩
abbrev main_v70 : Ref sig .tc := ⟨.hbm, 139, rfl⟩
abbrev main_v71 : Ref sig .tc := ⟨.hbm, 140, rfl⟩
abbrev main_c_20 : Ref sig .tc := ⟨.hbm, 141, rfl⟩
abbrev main_v72 : Ref sig .tc := ⟨.hbm, 142, rfl⟩
abbrev main_v73 : Ref sig .tc := ⟨.hbm, 143, rfl⟩
abbrev main_c_21 : Ref sig .tc := ⟨.hbm, 144, rfl⟩
abbrev main_v74 : Ref sig .tc := ⟨.hbm, 145, rfl⟩
abbrev main_v75 : Ref sig .tc := ⟨.hbm, 146, rfl⟩
abbrev main_v76 : Ref sig .tc := ⟨.hbm, 147, rfl⟩
abbrev main_v77 : Ref sig .tc := ⟨.hbm, 148, rfl⟩
abbrev main_v78 : Ref sig .tc := ⟨.hbm, 149, rfl⟩
abbrev main_v79 : Ref sig .tc := ⟨.hbm, 150, rfl⟩
abbrev main_v80 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2048x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S2000000x1_S2000000x64_0_1 : S2000000x1.BroadcastsInDim S2000000x64 (![0, 1] : Fin 2 → Fin S2000000x64.rank)
  bcast_S_S100000x64 : S_.BroadcastsInDim S100000x64 (![] : Fin 0 → Fin S100000x64.rank)
  pads_S100000x64_S100352x64_03520_000 : S100000x64.Pads (![0, 0] : Fin 2 → Nat) ![352, 0] ![0, 0] S100352x64
  h_S_ : 0 < S_.numel
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  slices_S100352x64_S100000x64_0_0 : S100352x64.Slices ![0, 0] S100000x64
  bcast_S_S16384 : S_.BroadcastsInDim S16384 (![] : Fin 0 → Fin S16384.rank)
  bcast_S16384_S16384x1_0 : S16384.BroadcastsInDim S16384x1 (![0] : Fin 1 → Fin S16384x1.rank)
  reduces_S2048x64_S2048 : S2048x64.Reduces [1] S2048
  shapeCasts_S2048_S2048x1 : S2048.ShapeCasts S2048x1
  inb_S2048x1_S2048x1_0_0 : ∀ a, (![0, 0] : Fin 2 → Nat) a + S2048x1.size a ≤ S2048x1.size a
  h_S2048x1 : 0 < S2048x1.numel
  shapeCasts_S16384x1_S16384 : S16384x1.ShapeCasts S16384
  gather_S2048x64_S100000x1_S100000x64_1_0_n_n_0_1_164_wf : GatherDims.WF S2048x64 S100000x1 S100000x64 [1] [0] [] [0] [] 1 ![1, 64]
  gather_S100000x64_S2000000x1_S2000000x64_1_0_n_n_0_1_164_wf : GatherDims.WF S100000x64 S2000000x1 S2000000x64 [1] [0] [] [0] [] 1 ![1, 64]
  scatter_S100000x64_S2000000x1_S2000000x64_1_0_0_1_wf : ScatterDims.WF S100000x64 S2000000x1 S2000000x64 [1] [0] [0] 1
  gather_S100000x64_S16384x1_S16384x64_1_0_n_n_0_1_164_wf : GatherDims.WF S100000x64 S16384x1 S16384x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S100352x64.size a
  hwx0_0 : ∀ i : grid0.Coords, EltTy.bits .f32 = 32 ∨ (Rect.block (s := S100352x64) S2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S100352x64.size a
  hwx0_1 : ∀ i : grid0.Coords, EltTy.bits .f32 = 32 ∨ (Rect.block (s := S100352x64) S2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S100352x64.size a
  hwx0_2 : ∀ i : grid0.Coords, EltTy.bits .f32 = 32 ∨ (Rect.block (s := S100352x64) S2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x64.size a ≤ S100352x64.size a
  hwx0_3 : ∀ i : grid0.Coords, EltTy.bits .f32 = 32 ∨ (Rect.block (s := S100352x64) S2048x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x64.size a ≤ S100352x64.size a
  hwx0_4 : ∀ i : grid0.Coords, EltTy.bits .f32 = 32 ∨ (Rect.block (s := S100352x64) S2048x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x64.size a ≤ S16384x64.size a
  hwx1_0 : ∀ i : grid1.Coords, EltTy.bits .f32 = 32 ∨ (Rect.block (s := S16384x64) S2048x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x64.size a ≤ S16384x64.size a
  hwx1_1 : ∀ i : grid1.Coords, EltTy.bits .f32 = 32 ∨ (Rect.block (s := S16384x64) S2048x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x1.size a ≤ S16384x1.size a
  hwx1_2 : ∀ i : grid1.Coords, EltTy.bits .f32 = 32 ∨ (Rect.block (s := S16384x1) S2048x1.size (cc1_transform_2 i) (hinb1_2 i)).WholeWords (EltTy.packing .f32)

variable [Facts₀]

def gather_S2048x64_S100000x1_S100000x64_1_0_n_n_0_1_164 : GatherDims S2048x64 S100000x1 S100000x64 where
  offsetDims := [1]
  collapsedSliceDims := [0]
  operandBatchingDims := []
  startIndicesBatchingDims := []
  startIndexMap := [0]
  indexVectorDim := 1
  sliceSizes := ![1, 64]
  wf := gather_S2048x64_S100000x1_S100000x64_1_0_n_n_0_1_164_wf
def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def gather_S100000x64_S16384x1_S16384x64_1_0_n_n_0_1_164 : GatherDims S100000x64 S16384x1 S16384x64 where
  offsetDims := [1]
  collapsedSliceDims := [0]
  operandBatchingDims := []
  startIndicesBatchingDims := []
  startIndexMap := [0]
  indexVectorDim := 1
  sliceSizes := ![1, 64]
  wf := gather_S100000x64_S16384x1_S16384x64_1_0_n_n_0_1_164_wf

abbrev win0_0 : Pipeline.Window sig grid0 :=
  Pipeline.Window.ofSpec (Memref.whole main_v57) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v58) S2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v59) S2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v60) S2048x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v61) S2048x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v69) S2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v78) S2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v79) S2048x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S2048x64 : Shape := ⟨2, ![2048, 64]⟩
abbrev S2000000 : Shape := ⟨1, ![2000000]⟩
abbrev S16384 : Shape := ⟨1, ![16384]⟩
abbrev S100000 : Shape := ⟨1, ![100000]⟩
abbrev S_ : Shape := ⟨0, ![]⟩
abbrev S100000x1 : Shape := ⟨2, ![100000, 1]⟩
abbrev S100000x64 : Shape := ⟨2, ![100000, 64]⟩
abbrev S2000000x1 : Shape := ⟨2, ![2000000, 1]⟩
abbrev S2000000x64 : Shape := ⟨2, ![2000000, 64]⟩
abbrev S16384x1 : Shape := ⟨2, ![16384, 1]⟩
abbrev S16384x64 : Shape := ⟨2, ![16384, 64]⟩

abbrev nBuf : Space → Nat
  | .hbm => 145
  | .vmem => 0
  | .smem => 0
  | _ => 0

abbrev hbmTy0_0 (i : Nat) : BufTy := match i % 128 with
  | 0 => ⟨S2048x64, .f32⟩
  | 1 => ⟨S2048x64, .f32⟩
  | 2 => ⟨S2000000, .f32⟩
  | 3 => ⟨S2000000, .i32⟩
  | 4 => ⟨S2000000, .i32⟩
  | 5 => ⟨S16384, .i32⟩
  | 6 => ⟨S16384, .i32⟩
  | 7 => ⟨S100000, .i32⟩
  | 8 => ⟨S_, .i32⟩
  | 9 => ⟨S_, .i32⟩
  | 10 => ⟨S100000, .i32⟩
  | 11 => ⟨S100000, .i32⟩
  | 12 => ⟨S100000, .i32⟩
  | 13 => ⟨S_, .i32⟩
  | 14 => ⟨S100000, .i32⟩
  | 15 => ⟨S100000, .i1⟩
  | 16 => ⟨S100000, .i32⟩
  | 17 => ⟨S100000, .i32⟩
  | 18 => ⟨S_, .i32⟩
  | 19 => ⟨S100000, .i32⟩
  | 20 => ⟨S100000, .i1⟩
  | 21 => ⟨S100000, .i1⟩
  | 22 => ⟨S_, .i32⟩
  | 23 => ⟨S100000, .i32⟩
  | 24 => ⟨S100000, .i32⟩
  | 25 => ⟨S100000, .i32⟩
  | 26 => ⟨S_, .i32⟩
  | 27 => ⟨S100000, .i32⟩
  | 28 => ⟨S100000, .i1⟩
  | 29 => ⟨S_, .i32⟩
  | 30 => ⟨S100000, .i32⟩
  | 31 => ⟨S100000, .i32⟩
  | 32 => ⟨S100000, .i32⟩
  | 33 => ⟨S100000x1, .i32⟩
  | 34 => ⟨S100000x64, .f32⟩
  | 35 => ⟨S_, .i32⟩
  | 36 => ⟨S_, .i32⟩
  | 37 => ⟨S_, .i32⟩
  | 38 => ⟨S_, .i1⟩
  | 39 => ⟨S_, .i32⟩
  | 40 => ⟨S_, .i32⟩
  | 41 => ⟨S100000, .i32⟩
  | 42 => ⟨S100000, .i32⟩
  | 43 => ⟨S_, .i32⟩
  | 44 => ⟨S100000, .i32⟩
  | 45 => ⟨S100000, .i1⟩
  | 46 => ⟨S_, .i32⟩
  | 47 => ⟨S100000, .i32⟩
  | 48 => ⟨S100000, .i1⟩
  | 49 => ⟨S_, .i32⟩
  | 50 => ⟨S_, .i1⟩
  | 51 => ⟨S100000, .i1⟩
  | 52 => ⟨S100000, .i1⟩
  | 53 => ⟨S100000, .i1⟩
  | 54 => ⟨S100000, .i32⟩
  | 55 => ⟨S100000, .i32⟩
  | 56 => ⟨S100000, .i32⟩
  | 57 => ⟨S_, .i32⟩
  | 58 => ⟨S100000, .i32⟩
  | 59 => ⟨S100000, .i1⟩
  | 60 => ⟨S_, .i32⟩
  | 61 => ⟨S100000, .i32⟩
  | 62 => ⟨S100000, .i32⟩
  | 63 => ⟨S100000, .i32⟩
  | 64 => ⟨S100000x1, .i32⟩
  | 65 => ⟨S100000x64, .f32⟩
  | 66 => ⟨S100000x64, .f32⟩
  | 67 => ⟨S_, .i32⟩
  | 68 => ⟨S2000000, .i32⟩
  | 69 => ⟨S2000000, .i1⟩
  | 70 => ⟨S_, .i32⟩
  | 71 => ⟨S2000000, .i32⟩
  | 72 => ⟨S2000000, .i32⟩
  | 73 => ⟨S2000000, .i32⟩
  | 74 => ⟨S2000000x1, .i32⟩
  | 75 => ⟨S2000000x64, .f32⟩
  | 76 => ⟨S2000000x1, .f32⟩
  | 77 => ⟨S2000000x64, .f32⟩
  | 78 => ⟨S2000000x64, .f32⟩
  | 79 => ⟨S_, .f32⟩
  | 80 => ⟨S100000x64, .f32⟩
  | 81 => ⟨S2000000x1, .i32⟩
  | 82 => ⟨S100000x64, .f32⟩
  | 83 => ⟨S100000x64, .f32⟩
  | 84 => ⟨S_, .i32⟩
  | 85 => ⟨S2000000, .i32⟩
  | 86 => ⟨S2000000, .i1⟩
  | 87 => ⟨S_, .i32⟩
  | 88 => ⟨S2000000, .i32⟩
  | 89 => ⟨S2000000, .i32⟩
  | 90 => ⟨S2000000, .i32⟩
  | 91 => ⟨S2000000x1, .i32⟩
  | 92 => ⟨S2000000x64, .f32⟩
  | 93 => ⟨S2000000x1, .f32⟩
  | 94 => ⟨S2000000x64, .f32⟩
  | 95 => ⟨S2000000x64, .f32⟩
  | 96 => ⟨S_, .f32⟩
  | 97 => ⟨S100000x64, .f32⟩
  | 98 => ⟨S2000000x1, .i32⟩
  | 99 => ⟨S100000x64, .f32⟩
  | 100 => ⟨S100000x64, .f32⟩
  | 101 => ⟨S_, .i32⟩
  | 102 => ⟨S2000000, .i32⟩
  | 103 => ⟨S2000000, .i1⟩
  | 104 => ⟨S_, .i32⟩
  | 105 => ⟨S2000000, .i32⟩
  | 106 => ⟨S2000000, .i32⟩
  | 107 => ⟨S2000000, .i32⟩
  | 108 => ⟨S2000000x1, .i32⟩
  | 109 => ⟨S2000000x64, .f32⟩
  | 110 => ⟨S2000000x1, .f32⟩
  | 111 => ⟨S2000000x64, .f32⟩
  | 112 => ⟨S2000000x64, .f32⟩
  | 113 => ⟨S_, .f32⟩
  | 114 => ⟨S100000x64, .f32⟩
  | 115 => ⟨S2000000x1, .i32⟩
  | 116 => ⟨S100000x64, .f32⟩
  | 117 => ⟨S100000x64, .f32⟩
  | 118 => ⟨S_, .f32⟩
  | 119 => ⟨S100000x64, .f32⟩
  | 120 => ⟨S100000x64, .f32⟩
  | 121 => ⟨S_, .i32⟩
  | 122 => ⟨S16384, .i32⟩
  | 123 => ⟨S16384, .i1⟩
  | 124 => ⟨S_, .i32⟩
  | 125 => ⟨S16384, .i32⟩
  | 126 => ⟨S16384, .i32⟩
  | 127 => ⟨S16384, .i32⟩
  | _ => ⟨S2048x64, .f32⟩

abbrev hbmTy0_1 (i : Nat) : BufTy := match i % 128 with
  | 0 => ⟨S16384x1, .i32⟩
  | 1 => ⟨S16384x64, .f32⟩
  | 2 => ⟨S_, .i32⟩
  | 3 => ⟨S16384, .i32⟩
  | 4 => ⟨S16384, .i32⟩
  | 5 => ⟨S_, .i32⟩
  | 6 => ⟨S16384, .i32⟩
  | 7 => ⟨S16384, .i1⟩
  | 8 => ⟨S_, .i32⟩
  | 9 => ⟨S16384, .i32⟩
  | 10 => ⟨S16384, .i32⟩
  | 11 => ⟨S16384, .i32⟩
  | 12 => ⟨S16384x1, .i32⟩
  | 13 => ⟨S16384x64, .f32⟩
  | 14 => ⟨S16384x64, .f32⟩
  | 15 => ⟨S_, .f32⟩
  | 16 => ⟨S16384, .f32⟩
  | _ => ⟨S2048x64, .f32⟩

abbrev hbmTy (i : Nat) : BufTy := match i / 128 with
  | 0 => hbmTy0_0 i
  | 1 => hbmTy0_1 i
  | _ => ⟨S2048x64, .f32⟩

abbrev bufTy : (tb : Table) → Fin (tcTables nBuf tb) → BufTy
  | .hbm, ⟨i, _⟩ => hbmTy i
  | _, _ => ⟨S2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v1 : Ref sig .tc := ⟨.hbm, 25, rfl⟩
abbrev main_c_0 : Ref sig .tc := ⟨.hbm, 26, rfl⟩
abbrev main_v2 : Ref sig .tc := ⟨.hbm, 27, rfl⟩
abbrev main_v3 : Ref sig .tc := ⟨.hbm, 28, rfl⟩
abbrev main_c_1 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_c_2 : Ref sig .tc := ⟨.hbm, 35, rfl⟩
abbrev main_call1_v0 : Ref sig .tc := ⟨.hbm, 36, rfl⟩
abbrev main_call1_c : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_c_1 : Ref sig .tc := ⟨.hbm, 43, rfl⟩
abbrev main_call1_v5 : Ref sig .tc := ⟨.hbm, 44, rfl⟩
abbrev main_call1_v6 : Ref sig .tc := ⟨.hbm, 45, rfl⟩
abbrev main_call1_c_2 : Ref sig .tc := ⟨.hbm, 46, rfl⟩
abbrev main_call1_v7 : Ref sig .tc := ⟨.hbm, 47, rfl⟩
abbrev main_call1_v8 : Ref sig .tc := ⟨.hbm, 48, rfl⟩
abbrev main_call1_c_3 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_v9 : Ref sig .tc := ⟨.hbm, 56, rfl⟩
abbrev main_c_3 : Ref sig .tc := ⟨.hbm, 57, rfl⟩
abbrev main_v10 : Ref sig .tc := ⟨.hbm, 58, rfl⟩
abbrev main_v11 : Ref sig .tc := ⟨.hbm, 59, rfl⟩
abbrev main_c_4 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_v17 : Ref sig .tc := ⟨.hbm, 66, rfl⟩
abbrev main_c_5 : Ref sig .tc := ⟨.hbm, 67, rfl⟩
abbrev main_v18 : Ref sig .tc := ⟨.hbm, 68, rfl⟩
abbrev main_v19 : Ref sig .tc := ⟨.hbm, 69, rfl⟩
abbrev main_c_6 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_cst : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_c_7 : Ref sig .tc := ⟨.hbm, 84, rfl⟩
abbrev main_v32 : Ref sig .tc := ⟨.hbm, 85, rfl⟩
abbrev main_v33 : Ref sig .tc := ⟨.hbm, 86, rfl⟩
abbrev main_c_8 : Ref sig .tc := ⟨.hbm, 87, rfl⟩
abbrev main_v34 : Ref sig .tc := ⟨.hbm, 88, rfl⟩
abbrev main_v35 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_cst_9 : Ref sig .tc := ⟨.hbm, 96, rfl⟩
abbrev main_v42 : Ref sig .tc := ⟨.hbm, 97, rfl⟩
abbrev main_v43 : Ref sig .tc := ⟨.hbm, 98, rfl⟩
abbrev main_v44 : Ref sig .tc := ⟨.hbm, 99, rfl⟩
abbrev main_v45 : Ref sig .tc := ⟨.hbm, 100, rfl⟩
abbrev main_c_10 : Ref sig .tc := ⟨.hbm, 101, rfl⟩
abbrev main_v46 : Ref sig .tc := ⟨.hbm, 102, rfl⟩
abbrev main_v47 : Ref sig .tc := ⟨.hbm, 103, rfl⟩
abbrev main_c_11 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_v54 : Ref sig .tc := ⟨.hbm, 111, rfl⟩
abbrev main_v55 : Ref sig .tc := ⟨.hbm, 112, rfl⟩
abbrev main_cst_12 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_cst_13 : Ref sig .tc := ⟨.hbm, 118, rfl⟩
abbrev main_v60 : Ref sig .tc := ⟨.hbm, 119, rfl⟩
abbrev main_v61 : Ref sig .tc := ⟨.hbm, 120, rfl⟩
abbrev main_c_14 : Ref sig .tc := ⟨.hbm, 121, rfl⟩
abbrev main_v62 : Ref sig .tc := ⟨.hbm, 122, rfl⟩
abbrev main_v63 : Ref sig .tc := ⟨.hbm, 123, rfl⟩
abbrev main_c_15 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_c_16 : Ref sig .tc := ⟨.hbm, 130, rfl⟩
abbrev main_v69 : Ref sig .tc := ⟨.hbm, 131, rfl⟩
abbrev main_v70 : Ref sig .tc := ⟨.hbm, 132, rfl⟩
abbrev main_c_17 : Ref sig .tc := ⟨.hbm, 133, rfl⟩
abbrev main_v71 : Ref sig .tc := ⟨.hbm, 134, rfl⟩
abbrev main_v72 : Ref sig .tc := ⟨.hbm, 135, rfl⟩
abbrev main_c_18 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_v76 : Ref sig .tc := ⟨.hbm, 140, rfl⟩
abbrev main_v77 : Ref sig .tc := ⟨.hbm, 141, rfl⟩
abbrev main_v78 : Ref sig .tc := ⟨.hbm, 142, rfl⟩
abbrev main_cst_19 : Ref sig .tc := ⟨.hbm, 143, rfl⟩
abbrev main_v79 : Ref sig .tc := ⟨.hbm, 144, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S2000000x1_S2000000x64_0_1 : S2000000x1.BroadcastsInDim S2000000x64 (![0, 1] : Fin 2 → Fin S2000000x64.rank)
  bcast_S_S100000x64 : S_.BroadcastsInDim S100000x64 (![] : Fin 0 → Fin S100000x64.rank)
  bcast_S_S16384 : S_.BroadcastsInDim S16384 (![] : Fin 0 → Fin S16384.rank)
  bcast_S16384_S16384x1_0 : S16384.BroadcastsInDim S16384x1 (![0] : Fin 1 → Fin S16384x1.rank)
  reducesTo_S16384x64_S16384_d1 : S16384x64.ReducesTo [1] S16384
  h_S_ : 0 < S_.numel
  gather_S2048x64_S100000x1_S100000x64_1_0_n_n_0_1_164_wf : GatherDims.WF S2048x64 S100000x1 S100000x64 [1] [0] [] [0] [] 1 ![1, 64]
  gather_S100000x64_S2000000x1_S2000000x64_1_0_n_n_0_1_164_wf : GatherDims.WF S100000x64 S2000000x1 S2000000x64 [1] [0] [] [0] [] 1 ![1, 64]
  scatter_S100000x64_S2000000x1_S2000000x64_1_0_0_1_wf : ScatterDims.WF S100000x64 S2000000x1 S2000000x64 [1] [0] [0] 1
  gather_S100000x64_S16384x1_S16384x64_1_0_n_n_0_1_164_wf : GatherDims.WF S100000x64 S16384x1 S16384x64 [1] [0] [] [0] [] 1 ![1, 64]

variable [Facts₀]

def gather_S2048x64_S100000x1_S100000x64_1_0_n_n_0_1_164 : GatherDims S2048x64 S100000x1 S100000x64 where
  offsetDims := [1]
  collapsedSliceDims := [0]
  operandBatchingDims := []
  startIndicesBatchingDims := []
  startIndexMap := [0]
  indexVectorDim := 1
  sliceSizes := ![1, 64]
  wf := gather_S2048x64_S100000x1_S100000x64_1_0_n_n_0_1_164_wf
def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def gather_S100000x64_S16384x1_S16384x64_1_0_n_n_0_1_164 : GatherDims S100000x64 S16384x1 S16384x64 where
  offsetDims := [1]
  collapsedSliceDims := [0]
  operandBatchingDims := []
  startIndicesBatchingDims := []
  startIndexMap := [0]
  indexVectorDim := 1
  sliceSizes := ![1, 64]
  wf := gather_S100000x64_S16384x1_S16384x64_1_0_n_n_0_1_164_wf

class Facts : Prop extends Facts₀ where

variable [Facts]
-- ==== Proof.KernelRun.lean ====
/-
  The idealized kernel's whole run, with its result array named.

  @main is twelve stretches of host operations, the layer-mean region, one more stretch, the row-dot region and a
  final reshape.  Every unscoped buffer of a core ends at the fold of all sixteen segments over the launch memory,
  `W16 m ρ c`: each stretch applies its operations' functions, each region replaces its windows' arrays by what its
  write-backs leave.  The frame claim keeps of this only that the seven argument arrays end as launched; here the
  result buffer `main_v80` is kept as well, at its value under that fold.
-/
import proofs.«118937_j27711128994136_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result array ends at the value the sixteen
    segments' fold gives it, and the argument arrays end as launched. -/
theorem run_result : θ_run defs (onTc (τ := τ) (main (F := F))) ⟨m, fun _ => 0, ρ⟩ (fun r => ∀ c : Dev nD,
      r.2.mem ((c.tc : Thread nD τ).loc main_v80) = W16 m ρ c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v80 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c)⟩)

end Cert.KernelIdeal.KRun

end
-- ==== Proof.RefOps.lean ====
/-
  The reference program's @main as a table: its 138 operations in order, the operations of the two
  outlined integer helpers (floor division with its select, remainder with its select) listed where
  they are called, over the buffers the call records name.  The table is cut in two after the
  operation that writes `main_v59`, the sum of the base embedding and the three propagated layers:
  `opsA` (111 operations) builds that sum, `opsB` (27 operations) divides it by 4.0, gathers the
  user and item rows, multiplies them and sums over the lanes.
-/
import proofs.«118937_j27711128994136_1_alg».proof.Proof.Gen.ReferenceIdeal
import Idealize.ShloMosaic.Lib.StableHlo.Run

set_option maxRecDepth 16384

noncomputable section

namespace Cert.ReferenceIdeal.RefRun

open Cert.ReferenceIdeal Idealize.ShloMosaic Idealize.ShloMosaic.TcCoe Idealize.SL.Sem
open Cert.ReferenceIdeal.Facts₀ Cert.ReferenceIdeal.Facts

variable {F : FTy → Type} [FloatOps F]

set_option maxHeartbeats 40000000 in
/-- The first 111 operations of @main, callee operations in place: from the iota up to the sum of the four layers (`main_v59`). -/
abbrev opsA : List (HloOp τ sig (Elt F)) :=
  ( StableHlo.nullary main_v0 (iotaInDim S100000 32 0)
  :: StableHlo.nullary main_c (constantI S_ 32 49#32)
  :: StableHlo.TRef.unary (.of main_c : StableHlo.TRef sig ⟨S_, .i32⟩) main_call0.v0 id
  :: StableHlo.TRef.unary main_call0.v0 main_call0.v1 (broadcastInDim S100000 ![] bcast_S_S100000)
  :: StableHlo.TRef.binary (.of main_v0 : StableHlo.TRef sig ⟨S100000, .i32⟩) main_call0.v1 main_call0.v2 Host.divsi
  :: StableHlo.TRef.unary (.of main_v0 : StableHlo.TRef sig ⟨S100000, .i32⟩) main_call0.v3 signi
  :: StableHlo.TRef.unary main_call0.v0 main_call0.v4 signi
  :: StableHlo.TRef.unary main_call0.v4 main_call0.v5 (broadcastInDim S100000 ![] bcast_S_S100000)
  :: StableHlo.TRef.binary main_call0.v3 main_call0.v5 main_call0.v6 (cmpi .ne)
  :: StableHlo.TRef.unary main_call0.v0 main_call0.v7 (broadcastInDim S100000 ![] bcast_S_S100000)
  :: StableHlo.TRef.binary (.of main_v0 : StableHlo.TRef sig ⟨S100000, .i32⟩) main_call0.v7 main_call0.v8 Host.remsi
  :: StableHlo.TRef.nullary main_call0.c (constantI S_ 32 0#32)
  :: StableHlo.TRef.unary main_call0.c main_call0.v9 (broadcastInDim S100000 ![] bcast_S_S100000)
  :: StableHlo.TRef.binary main_call0.v8 main_call0.v9 main_call0.v10 (cmpi .ne)
  :: StableHlo.TRef.binary main_call0.v6 main_call0.v10 main_call0.v11 andi
  :: StableHlo.TRef.nullary main_call0.c_0 (constantI S_ 32 1#32)
  :: StableHlo.TRef.unary main_call0.c_0 main_call0.v12 (broadcastInDim S100000 ![] bcast_S_S100000)
  :: StableHlo.TRef.binary main_call0.v2 main_call0.v12 main_call0.v13 subi
  :: StableHlo.TRef.ternary main_call0.v11 main_call0.v13 main_call0.v2 main_call0.call0.v0 select
  :: StableHlo.nullary main_c_0 (constantI S_ 32 0#32)
  :: StableHlo.unary main_c_0 main_v2 (broadcastInDim S100000 ![] bcast_S_S100000 : (⟨S_, .i32⟩ : BufTy).Contents (Elt F) → (⟨S100000, .i32⟩ : BufTy).Contents (Elt F))
  :: StableHlo.binary main_v1 main_v2 main_v3 (cmpi .slt : (⟨S100000, .i32⟩ : BufTy).Contents (Elt F) → (⟨S100000, .i32⟩ : BufTy).Contents (Elt F) → (⟨S100000, .i1⟩ : BufTy).Contents (Elt F))
  :: StableHlo.nullary main_c_1 (constantI S_ 32 2048#32)
  :: StableHlo.unary main_c_1 main_v4 (broadcastInDim S100000 ![] bcast_S_S100000 : (⟨S_, .i32⟩ : BufTy).Contents (Elt F) → (⟨S100000, .i32⟩ : BufTy).Contents (Elt F))
  :: StableHlo.binary main_v1 main_v4 main_v5 (addi : (⟨S100000, .i32⟩ : BufTy).Contents (Elt F) → (⟨S100000, .i32⟩ : BufTy).Contents (Elt F) → (⟨S100000, .i32⟩ : BufTy).Contents (Elt F))
  :: StableHlo.ternary main_v3 main_v5 main_v1 main_v6 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F))
  :: StableHlo.unary main_v6 main_v7 (broadcastInDim S100000x1 ![0] bcast_S100000_S100000x1_0 : (⟨S100000, .i32⟩ : BufTy).Contents (Elt F) → (⟨S100000x1, .i32⟩ : BufTy).Contents (Elt F))
  :: StableHlo.binary main_arg0 main_v7 main_v8 ((fun x i => Host.gather gather_S2048x64_S100000x1_S100000x64_1_0_n_n_0_1_164 x i) : (⟨S2048x64, .f32⟩ : BufTy).Contents (Elt F) → (⟨S100000x1, .i32⟩ : BufTy).Contents (Elt F) → (⟨S100000x64, .f32⟩ : BufTy).Contents (Elt F))
  :: StableHlo.nullary main_c_2 (constantI S_ 32 2048#32)
  :: StableHlo.TRef.unary (.of main_c_2 : StableHlo.TRef sig ⟨S_, .i32⟩) main_call1.v0 id
  :: StableHlo.TRef.nullary main_call1.c (constantI S_ 32 0#32)
  :: StableHlo.TRef.binary main_call1.v0 main_call1.c main_call1.v1 (cmpi .eq)
  :: StableHlo.TRef.nullary main_call1.c_0 (constantI S_ 32 1#32)
  :: StableHlo.TRef.ternary main_call1.v1 main_call1.c_0 main_call1.v0 main_call1.call0.v0 select
  :: StableHlo.TRef.unary main_call1.call0.v0 main_call1.v3 (broadcastInDim S100000 ![] bcast_S_S100000)
  :: StableHlo.TRef.binary (.of main_v0 : StableHlo.TRef sig ⟨S100000, .i32⟩) main_call1.v3 main_call1.v4 Host.remsi
  :: StableHlo.TRef.nullary main_call1.c_1 (constantI S_ 32 0#32)
  :: StableHlo.TRef.unary main_call1.c_1 main_call1.v5 (broadcastInDim S100000 ![] bcast_S_S100000)
  :: StableHlo.TRef.binary main_call1.v4 main_call1.v5 main_call1.v6 (cmpi .ne)
  :: StableHlo.TRef.nullary main_call1.c_2 (constantI S_ 32 0#32)
  :: StableHlo.TRef.unary main_call1.c_2 main_call1.v7 (broadcastInDim S100000 ![] bcast_S_S100000)
  :: StableHlo.TRef.binary main_call1.v4 main_call1.v7 main_call1.v8 (cmpi .slt)
  :: StableHlo.TRef.nullary main_call1.c_3 (constantI S_ 32 0#32)
  :: StableHlo.TRef.binary main_call1.call0.v0 main_call1.c_3 main_call1.v9 (cmpi .slt)
  :: StableHlo.TRef.unary main_call1.v9 main_call1.v10 (broadcastInDim S100000 ![] bcast_S_S100000)
  :: StableHlo.TRef.binary main_call1.v8 main_call1.v10 main_call1.v11 (cmpi .ne)
  :: StableHlo.TRef.binary main_call1.v11 main_call1.v6 main_call1.v12 andi
  :: StableHlo.TRef.unary main_call1.call0.v0 main_call1.v13 (broadcastInDim S100000 ![] bcast_S_S100000)
  :: StableHlo.TRef.binary main_call1.v4 main_call1.v13 main_call1.v14 addi
  :: StableHlo.TRef.ternary main_call1.v12 main_call1.v14 main_call1.v4 main_call1.v15 select
  :: StableHlo.nullary main_c_3 (constantI S_ 32 0#32)
  :: StableHlo.unary main_c_3 main_v10 (broadcastInDim S100000 ![] bcast_S_S100000 : (⟨S_, .i32⟩ : BufTy).Contents (Elt F) → (⟨S100000, .i32⟩ : BufTy).Contents (Elt F))
  :: StableHlo.binary main_v9 main_v10 main_v11 (cmpi .slt : (⟨S100000, .i32⟩ : BufTy).Contents (Elt F) → (⟨S100000, .i32⟩ : BufTy).Contents (Elt F) → (⟨S100000, .i1⟩ : BufTy).Contents (Elt F))
  :: StableHlo.nullary main_c_4 (constantI S_ 32 2048#32)
  :: StableHlo.unary main_c_4 main_v12 (broadcastInDim S100000 ![] bcast_S_S100000 : (⟨S_, .i32⟩ : BufTy).Contents (Elt F) → (⟨S100000, .i32⟩ : BufTy).Contents (Elt F))
  :: StableHlo.binary main_v9 main_v12 main_v13 (addi : (⟨S100000, .i32⟩ : BufTy).Contents (Elt F) → (⟨S100000, .i32⟩ : BufTy).Contents (Elt F) → (⟨S100000, .i32⟩ : BufTy).Contents (Elt F))
  :: StableHlo.ternary main_v11 main_v13 main_v9 main_v14 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F))
  :: StableHlo.unary main_v14 main_v15 (broadcastInDim S100000x1 ![0] bcast_S100000_S100000x1_0 : (⟨S100000, .i32⟩ : BufTy).Contents (Elt F) → (⟨S100000x1, .i32⟩ : BufTy).Contents (Elt F))
  :: StableHlo.binary main_arg1 main_v15 main_v16 ((fun x i => Host.gather gather_S2048x64_S100000x1_S100000x64_1_0_n_n_0_1_164 x i) : (⟨S2048x64, .f32⟩ : BufTy).Contents (Elt F) → (⟨S100000x1, .i32⟩ : BufTy).Contents (Elt F) → (⟨S100000x64, .f32⟩ : BufTy).Contents (Elt F))
  :: StableHlo.binary main_v8 main_v16 main_v17 (addf : (⟨S100000x64, .f32⟩ : BufTy).Contents (Elt F) → (⟨S100000x64, .f32⟩ : BufTy).Contents (Elt F) → (⟨S100000x64, .f32⟩ : BufTy).Contents (Elt F))
  :: StableHlo.nullary main_c_5 (constantI S_ 32 0#32)
  :: StableHlo.unary main_c_5 main_v18 (broadcastInDim S2000000 ![] bcast_S_S2000000 : (⟨S_, .i32⟩ : BufTy).Contents (Elt F) → (⟨S2000000, .i32⟩ : BufTy).Contents (Elt F))
  :: StableHlo.binary main_arg4 main_v18 main_v19 (cmpi .slt : (⟨S2000000, .i32⟩ : BufTy).Contents (Elt F) → (⟨S2000000, .i32⟩ : BufTy).Contents (Elt F) → (⟨S2000000, .i1⟩ : BufTy).Contents (Elt F))
  :: StableHlo.nullary main_c_6 (constantI S_ 32 100000#32)
  :: StableHlo.unary main_c_6 main_v20 (broadcastInDim S2000000 ![] bcast_S_S2000000 : (⟨S_, .i32⟩ : BufTy).Contents (Elt F) → (⟨S2000000, .i32⟩ : BufTy).Contents (Elt F))
  :: StableHlo.binary main_arg4 main_v20 main_v21 (addi : (⟨S2000000, .i32⟩ : BufTy).Contents (Elt F) → (⟨S2000000, .i32⟩ : BufTy).Contents (Elt F) → (⟨S2000000, .i32⟩ : BufTy).Contents (Elt F))
  :: StableHlo.ternary main_v19 main_v21 main_arg4 main_v22 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F))
  :: StableHlo.unary main_v22 main_v23 (broadcastInDim S2000000x1 ![0] bcast_S2000000_S2000000x1_0 : (⟨S2000000, .i32⟩ : BufTy).Contents (Elt F) → (⟨S2000000x1, .i32⟩ : BufTy).Contents (Elt F))
  :: StableHlo.binary main_v17 main_v23 main_v24 ((fun x i => Host.gather gather_S100000x64_S2000000x1_S2000000x64_1_0_n_n_0_1_164 x i) : (⟨S100000x64, .f32⟩ : BufTy).Contents (Elt F) → (⟨S2000000x1, .i32⟩ : BufTy).Contents (Elt F) → (⟨S2000000x64, .f32⟩ : BufTy).Contents (Elt F))
  :: StableHlo.unary main_arg2 main_v25 (broadcastInDim S2000000x1 ![0] bcast_S2000000_S2000000x1_0 : (⟨S2000000, .f32⟩ : BufTy).Contents (Elt F) → (⟨S2000000x1, .f32⟩ : BufTy).Contents (Elt F))
  :: StableHlo.unary main_v25 main_v26 (broadcastInDim S2000000x64 ![0, 1] bcast_S2000000x1_S2000000x64_0_1 : (⟨S2000000x1, .f32⟩ : BufTy).Contents (Elt F) → (⟨S2000000x64, .f32⟩ : BufTy).Contents (Elt F))
  :: StableHlo.binary main_v24 main_v26 main_v27 (mulf : (⟨S2000000x64, .f32⟩ : BufTy).Contents (Elt F) → (⟨S2000000x64, .f32⟩ : BufTy).Contents (Elt F) → (⟨S2000000x64, .f32⟩ : BufTy).Contents (Elt F))
  :: StableHlo.nullary main_cst (constant S_ .f32 0x00000000#32)
  :: StableHlo.unary main_cst main_v28 (broadcastInDim S100000x64 ![] bcast_S_S100000x64 : (⟨S_, .f32⟩ : BufTy).Contents (Elt F) → (⟨S100000x64, .f32⟩ : BufTy).Contents (Elt F))
  :: StableHlo.unary main_arg3 main_v29 (broadcastInDim S2000000x1 ![0] bcast_S2000000_S2000000x1_0 : (⟨S2000000, .i32⟩ : BufTy).Contents (Elt F) → (⟨S2000000x1, .i32⟩ : BufTy).Contents (Elt F))
  :: StableHlo.ternary main_v28 main_v29 main_v27 main_v30 ((fun x i u => Host.scatterAdd scatter_S100000x64_S2000000x1_S2000000x64_1_0_0_1 x i u) : (⟨S100000x64, .f32⟩ : BufTy).Contents (Elt F) → (⟨S2000000x1, .i32⟩ : BufTy).Contents (Elt F) → (⟨S2000000x64, .f32⟩ : BufTy).Contents (Elt F) → (⟨S100000x64, .f32⟩ : BufTy).Contents (Elt F))
  :: StableHlo.binary main_v17 main_v30 main_v31 (addf : (⟨S100000x64, .f32⟩ : BufTy).Contents (Elt F) → (⟨S100000x64, .f32⟩ : BufTy).Contents (Elt F) → (⟨S100000x64, .f32⟩ : BufTy).Contents (Elt F))
  :: StableHlo.nullary main_c_7 (constantI S_ 32 0#32)
  :: StableHlo.unary main_c_7 main_v32 (broadcastInDim S2000000 ![] bcast_S_S2000000 : (⟨S_, .i32⟩ : BufTy).Contents (Elt F) → (⟨S2000000, .i32⟩ : BufTy).Contents (Elt F))
  :: StableHlo.binary main_arg4 main_v32 main_v33 (cmpi .slt : (⟨S2000000, .i32⟩ : BufTy).Contents (Elt F) → (⟨S2000000, .i32⟩ : BufTy).Contents (Elt F) → (⟨S2000000, .i1⟩ : BufTy).Contents (Elt F))
  :: StableHlo.nullary main_c_8 (constantI S_ 32 100000#32)
  :: StableHlo.unary main_c_8 main_v34 (broadcastInDim S2000000 ![] bcast_S_S2000000 : (⟨S_, .i32⟩ : BufTy).Contents (Elt F) → (⟨S2000000, .i32⟩ : BufTy).Contents (Elt F))
  :: StableHlo.binary main_arg4 main_v34 main_v35 (addi : (⟨S2000000, .i32⟩ : BufTy).Contents (Elt F) → (⟨S2000000, .i32⟩ : BufTy).Contents (Elt F) → (⟨S2000000, .i32⟩ : BufTy).Contents (Elt F))
  :: StableHlo.ternary main_v33 main_v35 main_arg4 main_v36 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F))
  :: StableHlo.unary main_v36 main_v37 (broadcastInDim S2000000x1 ![0] bcast_S2000000_S2000000x1_0 : (⟨S2000000, .i32⟩ : BufTy).Contents (Elt F) → (⟨S2000000x1, .i32⟩ : BufTy).Contents (Elt F))
  :: StableHlo.binary main_v30 main_v37 main_v38 ((fun x i => Host.gather gather_S100000x64_S2000000x1_S2000000x64_1_0_n_n_0_1_164 x i) : (⟨S100000x64, .f32⟩ : BufTy).Contents (Elt F) → (⟨S2000000x1, .i32⟩ : BufTy).Contents (Elt F) → (⟨S2000000x64, .f32⟩ : BufTy).Contents (Elt F))
  :: StableHlo.unary main_arg2 main_v39 (broadcastInDim S2000000x1 ![0] bcast_S2000000_S2000000x1_0 : (⟨S2000000, .f32⟩ : BufTy).Contents (Elt F) → (⟨S2000000x1, .f32⟩ : BufTy).Contents (Elt F))
  :: StableHlo.unary main_v39 main_v40 (broadcastInDim S2000000x64 ![0, 1] bcast_S2000000x1_S2000000x64_0_1 : (⟨S2000000x1, .f32⟩ : BufTy).Contents (Elt F) → (⟨S2000000x64, .f32⟩ : BufTy).Contents (Elt F))
  :: StableHlo.binary main_v38 main_v40 main_v41 (mulf : (⟨S2000000x64, .f32⟩ : BufTy).Contents (Elt F) → (⟨S2000000x64, .f32⟩ : BufTy).Contents (Elt F) → (⟨S2000000x64, .f32⟩ : BufTy).Contents (Elt F))
  :: StableHlo.nullary main_cst_9 (constant S_ .f32 0x00000000#32)
  :: StableHlo.unary main_cst_9 main_v42 (broadcastInDim S100000x64 ![] bcast_S_S100000x64 : (⟨S_, .f32⟩ : BufTy).Contents (Elt F) → (⟨S100000x64, .f32⟩ : BufTy).Contents (Elt F))
  :: StableHlo.unary main_arg3 main_v43 (broadcastInDim S2000000x1 ![0] bcast_S2000000_S2000000x1_0 : (⟨S2000000, .i32⟩ : BufTy).Contents (Elt F) → (⟨S2000000x1, .i32⟩ : BufTy).Contents (Elt F))
  :: StableHlo.ternary main_v42 main_v43 main_v41 main_v44 ((fun x i u => Host.scatterAdd scatter_S100000x64_S2000000x1_S2000000x64_1_0_0_1 x i u) : (⟨S100000x64, .f32⟩ : BufTy).Contents (Elt F) → (⟨S2000000x1, .i32⟩ : BufTy).Contents (Elt F) → (⟨S2000000x64, .f32⟩ : BufTy).Contents (Elt F) → (⟨S100000x64, .f32⟩ : BufTy).Contents (Elt F))
  :: StableHlo.binary main_v31 main_v44 main_v45 (addf : (⟨S100000x64, .f32⟩ : BufTy).Contents (Elt F) → (⟨S100000x64, .f32⟩ : BufTy).Contents (Elt F) → (⟨S100000x64, .f32⟩ : BufTy).Contents (Elt F))
  :: StableHlo.nullary main_c_10 (constantI S_ 32 0#32)
  :: StableHlo.unary main_c_10 main_v46 (broadcastInDim S2000000 ![] bcast_S_S2000000 : (⟨S_, .i32⟩ : BufTy).Contents (Elt F) → (⟨S2000000, .i32⟩ : BufTy).Contents (Elt F))
  :: StableHlo.binary main_arg4 main_v46 main_v47 (cmpi .slt : (⟨S2000000, .i32⟩ : BufTy).Contents (Elt F) → (⟨S2000000, .i32⟩ : BufTy).Contents (Elt F) → (⟨S2000000, .i1⟩ : BufTy).Contents (Elt F))
  :: StableHlo.nullary main_c_11 (constantI S_ 32 100000#32)
  :: StableHlo.unary main_c_11 main_v48 (broadcastInDim S2000000 ![] bcast_S_S2000000 : (⟨S_, .i32⟩ : BufTy).Contents (Elt F) → (⟨S2000000, .i32⟩ : BufTy).Contents (Elt F))
  :: StableHlo.binary main_arg4 main_v48 main_v49 (addi : (⟨S2000000, .i32⟩ : BufTy).Contents (Elt F) → (⟨S2000000, .i32⟩ : BufTy).Contents (Elt F) → (⟨S2000000, .i32⟩ : BufTy).Contents (Elt F))
  :: StableHlo.ternary main_v47 main_v49 main_arg4 main_v50 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F))
  :: StableHlo.unary main_v50 main_v51 (broadcastInDim S2000000x1 ![0] bcast_S2000000_S2000000x1_0 : (⟨S2000000, .i32⟩ : BufTy).Contents (Elt F) → (⟨S2000000x1, .i32⟩ : BufTy).Contents (Elt F))
  :: StableHlo.binary main_v44 main_v51 main_v52 ((fun x i => Host.gather gather_S100000x64_S2000000x1_S2000000x64_1_0_n_n_0_1_164 x i) : (⟨S100000x64, .f32⟩ : BufTy).Contents (Elt F) → (⟨S2000000x1, .i32⟩ : BufTy).Contents (Elt F) → (⟨S2000000x64, .f32⟩ : BufTy).Contents (Elt F))
  :: StableHlo.unary main_arg2 main_v53 (broadcastInDim S2000000x1 ![0] bcast_S2000000_S2000000x1_0 : (⟨S2000000, .f32⟩ : BufTy).Contents (Elt F) → (⟨S2000000x1, .f32⟩ : BufTy).Contents (Elt F))
  :: StableHlo.unary main_v53 main_v54 (broadcastInDim S2000000x64 ![0, 1] bcast_S2000000x1_S2000000x64_0_1 : (⟨S2000000x1, .f32⟩ : BufTy).Contents (Elt F) → (⟨S2000000x64, .f32⟩ : BufTy).Contents (Elt F))
  :: StableHlo.binary main_v52 main_v54 main_v55 (mulf : (⟨S2000000x64, .f32⟩ : BufTy).Contents (Elt F) → (⟨S2000000x64, .f32⟩ : BufTy).Contents (Elt F) → (⟨S2000000x64, .f32⟩ : BufTy).Contents (Elt F))
  :: StableHlo.nullary main_cst_12 (constant S_ .f32 0x00000000#32)
  :: StableHlo.unary main_cst_12 main_v56 (broadcastInDim S100000x64 ![] bcast_S_S100000x64 : (⟨S_, .f32⟩ : BufTy).Contents (Elt F) → (⟨S100000x64, .f32⟩ : BufTy).Contents (Elt F))
  :: StableHlo.unary main_arg3 main_v57 (broadcastInDim S2000000x1 ![0] bcast_S2000000_S2000000x1_0 : (⟨S2000000, .i32⟩ : BufTy).Contents (Elt F) → (⟨S2000000x1, .i32⟩ : BufTy).Contents (Elt F))
  :: StableHlo.ternary main_v56 main_v57 main_v55 main_v58 ((fun x i u => Host.scatterAdd scatter_S100000x64_S2000000x1_S2000000x64_1_0_0_1 x i u) : (⟨S100000x64, .f32⟩ : BufTy).Contents (Elt F) → (⟨S2000000x1, .i32⟩ : BufTy).Contents (Elt F) → (⟨S2000000x64, .f32⟩ : BufTy).Contents (Elt F) → (⟨S100000x64, .f32⟩ : BufTy).Contents (Elt F))
  :: StableHlo.binary main_v45 main_v58 main_v59 (addf : (⟨S100000x64, .f32⟩ : BufTy).Contents (Elt F) → (⟨S100000x64, .f32⟩ : BufTy).Contents (Elt F) → (⟨S100000x64, .f32⟩ : BufTy).Contents (Elt F))
  :: [] )
/-- Each of them touches buffers of the TensorCore only: one row per operation, by its number of operands. -/
theorem opsA_sub : (opsA : List (HloOp τ sig (Elt F))).Forall fun op => op.bufs ⊆ StableHlo.tcRefs τ sig :=
  ⟨StableHlo.nullary_bufs_sub .., StableHlo.nullary_bufs_sub .., StableHlo.unary_bufs_sub .., StableHlo.unary_bufs_sub .., StableHlo.binary_bufs_sub .., StableHlo.unary_bufs_sub ..,
    StableHlo.unary_bufs_sub .., StableHlo.unary_bufs_sub .., StableHlo.binary_bufs_sub .., StableHlo.unary_bufs_sub .., StableHlo.binary_bufs_sub .., StableHlo.nullary_bufs_sub ..,
    StableHlo.unary_bufs_sub .., StableHlo.binary_bufs_sub .., StableHlo.binary_bufs_sub .., StableHlo.nullary_bufs_sub .., StableHlo.unary_bufs_sub .., StableHlo.binary_bufs_sub ..,
    StableHlo.ternary_bufs_sub .., StableHlo.nullary_bufs_sub .., StableHlo.unary_bufs_sub .., StableHlo.binary_bufs_sub .., StableHlo.nullary_bufs_sub .., StableHlo.unary_bufs_sub ..,
    StableHlo.binary_bufs_sub .., StableHlo.ternary_bufs_sub .., StableHlo.unary_bufs_sub .., StableHlo.binary_bufs_sub .., StableHlo.nullary_bufs_sub .., StableHlo.unary_bufs_sub ..,
    StableHlo.nullary_bufs_sub .., StableHlo.binary_bufs_sub .., StableHlo.nullary_bufs_sub .., StableHlo.ternary_bufs_sub .., StableHlo.unary_bufs_sub .., StableHlo.binary_bufs_sub ..,
    StableHlo.nullary_bufs_sub .., StableHlo.unary_bufs_sub .., StableHlo.binary_bufs_sub .., StableHlo.nullary_bufs_sub .., StableHlo.unary_bufs_sub .., StableHlo.binary_bufs_sub ..,
    StableHlo.nullary_bufs_sub .., StableHlo.binary_bufs_sub .., StableHlo.unary_bufs_sub .., StableHlo.binary_bufs_sub .., StableHlo.binary_bufs_sub .., StableHlo.unary_bufs_sub ..,
    StableHlo.binary_bufs_sub .., StableHlo.ternary_bufs_sub .., StableHlo.nullary_bufs_sub .., StableHlo.unary_bufs_sub .., StableHlo.binary_bufs_sub .., StableHlo.nullary_bufs_sub ..,
    StableHlo.unary_bufs_sub .., StableHlo.binary_bufs_sub .., StableHlo.ternary_bufs_sub .., StableHlo.unary_bufs_sub .., StableHlo.binary_bufs_sub .., StableHlo.binary_bufs_sub ..,
    StableHlo.nullary_bufs_sub .., StableHlo.unary_bufs_sub .., StableHlo.binary_bufs_sub .., StableHlo.nullary_bufs_sub .., StableHlo.unary_bufs_sub .., StableHlo.binary_bufs_sub ..,
    StableHlo.ternary_bufs_sub .., StableHlo.unary_bufs_sub .., StableHlo.binary_bufs_sub .., StableHlo.unary_bufs_sub .., StableHlo.unary_bufs_sub .., StableHlo.binary_bufs_sub ..,
    StableHlo.nullary_bufs_sub .., StableHlo.unary_bufs_sub .., StableHlo.unary_bufs_sub .., StableHlo.ternary_bufs_sub .., StableHlo.binary_bufs_sub .., StableHlo.nullary_bufs_sub ..,
    StableHlo.unary_bufs_sub .., StableHlo.binary_bufs_sub .., StableHlo.nullary_bufs_sub .., StableHlo.unary_bufs_sub .., StableHlo.binary_bufs_sub .., StableHlo.ternary_bufs_sub ..,
    StableHlo.unary_bufs_sub .., StableHlo.binary_bufs_sub .., StableHlo.unary_bufs_sub .., StableHlo.unary_bufs_sub .., StableHlo.binary_bufs_sub .., StableHlo.nullary_bufs_sub ..,
    StableHlo.unary_bufs_sub .., StableHlo.unary_bufs_sub .., StableHlo.ternary_bufs_sub .., StableHlo.binary_bufs_sub .., StableHlo.nullary_bufs_sub .., StableHlo.unary_bufs_sub ..,
    StableHlo.binary_bufs_sub .., StableHlo.nullary_bufs_sub .., StableHlo.unary_bufs_sub .., StableHlo.binary_bufs_sub .., StableHlo.ternary_bufs_sub .., StableHlo.unary_bufs_sub ..,
    StableHlo.binary_bufs_sub .., StableHlo.unary_bufs_sub .., StableHlo.unary_bufs_sub .., StableHlo.binary_bufs_sub .., StableHlo.nullary_bufs_sub .., StableHlo.unary_bufs_sub ..,
    StableHlo.unary_bufs_sub .., StableHlo.ternary_bufs_sub .., StableHlo.binary_bufs_sub ..⟩

set_option maxHeartbeats 40000000 in
/-- The remaining 27 operations: the constant 4.0, its broadcast, the division, the two row gathers, the product and the sum over the lanes. -/
abbrev opsB : List (HloOp τ sig (Elt F)) :=
  ( StableHlo.nullary main_cst_13 (constant S_ .f32 0x40800000#32)
  :: StableHlo.unary main_cst_13 main_v60 (broadcastInDim S100000x64 ![] bcast_S_S100000x64 : (⟨S_, .f32⟩ : BufTy).Contents (Elt F) → (⟨S100000x64, .f32⟩ : BufTy).Contents (Elt F))
  :: StableHlo.binary main_v59 main_v60 main_v61 (Host.divf : (⟨S100000x64, .f32⟩ : BufTy).Contents (Elt F) → (⟨S100000x64, .f32⟩ : BufTy).Contents (Elt F) → (⟨S100000x64, .f32⟩ : BufTy).Contents (Elt F))
  :: StableHlo.nullary main_c_14 (constantI S_ 32 0#32)
  :: StableHlo.unary main_c_14 main_v62 (broadcastInDim S16384 ![] bcast_S_S16384 : (⟨S_, .i32⟩ : BufTy).Contents (Elt F) → (⟨S16384, .i32⟩ : BufTy).Contents (Elt F))
  :: StableHlo.binary main_arg5 main_v62 main_v63 (cmpi .slt : (⟨S16384, .i32⟩ : BufTy).Contents (Elt F) → (⟨S16384, .i32⟩ : BufTy).Contents (Elt F) → (⟨S16384, .i1⟩ : BufTy).Contents (Elt F))
  :: StableHlo.nullary main_c_15 (constantI S_ 32 100000#32)
  :: StableHlo.unary main_c_15 main_v64 (broadcastInDim S16384 ![] bcast_S_S16384 : (⟨S_, .i32⟩ : BufTy).Contents (Elt F) → (⟨S16384, .i32⟩ : BufTy).Contents (Elt F))
  :: StableHlo.binary main_arg5 main_v64 main_v65 (addi : (⟨S16384, .i32⟩ : BufTy).Contents (Elt F) → (⟨S16384, .i32⟩ : BufTy).Contents (Elt F) → (⟨S16384, .i32⟩ : BufTy).Contents (Elt F))
  :: StableHlo.ternary main_v63 main_v65 main_arg5 main_v66 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F))
  :: StableHlo.unary main_v66 main_v67 (broadcastInDim S16384x1 ![0] bcast_S16384_S16384x1_0 : (⟨S16384, .i32⟩ : BufTy).Contents (Elt F) → (⟨S16384x1, .i32⟩ : BufTy).Contents (Elt F))
  :: StableHlo.binary main_v61 main_v67 main_v68 ((fun x i => Host.gather gather_S100000x64_S16384x1_S16384x64_1_0_n_n_0_1_164 x i) : (⟨S100000x64, .f32⟩ : BufTy).Contents (Elt F) → (⟨S16384x1, .i32⟩ : BufTy).Contents (Elt F) → (⟨S16384x64, .f32⟩ : BufTy).Contents (Elt F))
  :: StableHlo.nullary main_c_16 (constantI S_ 32 60000#32)
  :: StableHlo.unary main_c_16 main_v69 (broadcastInDim S16384 ![] bcast_S_S16384 : (⟨S_, .i32⟩ : BufTy).Contents (Elt F) → (⟨S16384, .i32⟩ : BufTy).Contents (Elt F))
  :: StableHlo.binary main_v69 main_arg6 main_v70 (addi : (⟨S16384, .i32⟩ : BufTy).Contents (Elt F) → (⟨S16384, .i32⟩ : BufTy).Contents (Elt F) → (⟨S16384, .i32⟩ : BufTy).Contents (Elt F))
  :: StableHlo.nullary main_c_17 (constantI S_ 32 0#32)
  :: StableHlo.unary main_c_17 main_v71 (broadcastInDim S16384 ![] bcast_S_S16384 : (⟨S_, .i32⟩ : BufTy).Contents (Elt F) → (⟨S16384, .i32⟩ : BufTy).Contents (Elt F))
  :: StableHlo.binary main_v70 main_v71 main_v72 (cmpi .slt : (⟨S16384, .i32⟩ : BufTy).Contents (Elt F) → (⟨S16384, .i32⟩ : BufTy).Contents (Elt F) → (⟨S16384, .i1⟩ : BufTy).Contents (Elt F))
  :: StableHlo.nullary main_c_18 (constantI S_ 32 100000#32)
  :: StableHlo.unary main_c_18 main_v73 (broadcastInDim S16384 ![] bcast_S_S16384 : (⟨S_, .i32⟩ : BufTy).Contents (Elt F) → (⟨S16384, .i32⟩ : BufTy).Contents (Elt F))
  :: StableHlo.binary main_v70 main_v73 main_v74 (addi : (⟨S16384, .i32⟩ : BufTy).Contents (Elt F) → (⟨S16384, .i32⟩ : BufTy).Contents (Elt F) → (⟨S16384, .i32⟩ : BufTy).Contents (Elt F))
  :: StableHlo.ternary main_v72 main_v74 main_v70 main_v75 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F))
  :: StableHlo.unary main_v75 main_v76 (broadcastInDim S16384x1 ![0] bcast_S16384_S16384x1_0 : (⟨S16384, .i32⟩ : BufTy).Contents (Elt F) → (⟨S16384x1, .i32⟩ : BufTy).Contents (Elt F))
  :: StableHlo.binary main_v61 main_v76 main_v77 ((fun x i => Host.gather gather_S100000x64_S16384x1_S16384x64_1_0_n_n_0_1_164 x i) : (⟨S100000x64, .f32⟩ : BufTy).Contents (Elt F) → (⟨S16384x1, .i32⟩ : BufTy).Contents (Elt F) → (⟨S16384x64, .f32⟩ : BufTy).Contents (Elt F))
  :: StableHlo.binary main_v68 main_v77 main_v78 (mulf : (⟨S16384x64, .f32⟩ : BufTy).Contents (Elt F) → (⟨S16384x64, .f32⟩ : BufTy).Contents (Elt F) → (⟨S16384x64, .f32⟩ : BufTy).Contents (Elt F))
  :: StableHlo.nullary main_cst_19 (constant S_ .f32 0x00000000#32)
  :: StableHlo.binary main_v78 main_cst_19 main_v79 ((fun x v => Host.reduceAdd x v reducesTo_S16384x64_S16384_d1 h_S_) : (⟨S16384x64, .f32⟩ : BufTy).Contents (Elt F) → (⟨S_, .f32⟩ : BufTy).Contents (Elt F) → (⟨S16384, .f32⟩ : BufTy).Contents (Elt F))
  :: [] )
/-- Each of them touches buffers of the TensorCore only: one row per operation, by its number of operands. -/
theorem opsB_sub : (opsB : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub ..,
    StableHlo.nullary_bufs_sub .., StableHlo.unary_bufs_sub .., StableHlo.binary_bufs_sub .., StableHlo.ternary_bufs_sub .., StableHlo.unary_bufs_sub .., StableHlo.binary_bufs_sub ..,
    StableHlo.nullary_bufs_sub .., StableHlo.unary_bufs_sub .., StableHlo.binary_bufs_sub .., StableHlo.nullary_bufs_sub .., StableHlo.unary_bufs_sub .., StableHlo.binary_bufs_sub ..,
    StableHlo.nullary_bufs_sub .., StableHlo.unary_bufs_sub .., StableHlo.binary_bufs_sub .., StableHlo.ternary_bufs_sub .., StableHlo.unary_bufs_sub .., StableHlo.binary_bufs_sub ..,
    StableHlo.binary_bufs_sub .., StableHlo.nullary_bufs_sub .., StableHlo.binary_bufs_sub ..⟩

end Cert.ReferenceIdeal.RefRun

end
-- ==== Proof.RefRun.lean ====
/-
  The reference program's run, read off its table of operations.

  @main is a straight line: its two windows run one after the other, and each of the two outlined
  integer helpers is its body run on the call's operands and record.  Unfolding the helpers at their
  calls and reassociating the sequencing leaves one chain of single operations, the chain the table
  `opsA ++ opsB` lists.  No buffer or semaphore of the program is scoped and every operation touches
  buffers of the TensorCore only, so every weakly fair execution terminates without a fault and leaves
  each buffer at the fold of the operations' functions over the launch contents.  That fold over the
  whole table is the fold over `opsB` of the fold over `opsA`.
-/
import proofs.«118937_j27711128994136_1_alg».proof.Proof.RefOps

set_option maxRecDepth 16384

noncomputable section

namespace Cert.ReferenceIdeal.RefRun

open Cert.ReferenceIdeal Idealize.ShloMosaic Idealize.ShloMosaic.TcCoe Idealize.SL.Sem Idealize.ShloMosaic.StableHlo

variable {F : FTy → Type} [FloatOps F]

set_option maxHeartbeats 4000000 in
/-- @main is the table run in order: the helpers' bodies unfolded at their calls and the records at their
    fields, both sides are one chain of single operations once the sequencing is reassociated. -/
theorem main_eq (c : Dev nD) : main (F := F) c = StableHlo.seq (opsA ++ opsB) := by
  rw [StableHlo.seq_append]
  simp only [main, main_part0, main_part1, fn_floor_divide.body, fn_where.body, fn_remainder.body, fn_where_0.body,
    opsA, opsB, StableHlo.seq, bind_assoc, pure_bind]

/-- No buffer of the program is scoped. -/
theorem scopedRefs_eq : (Finset.univ.filter fun b : Ref sig .tc => b.isScoped) = ∅ := by decide
/-- No semaphore of the program is scoped. -/
theorem scopedSems_eq : (Finset.univ.filter fun sm : SemLoc sig => sm.isScoped .tc) = ∅ := by decide

/-- Every operation of the table touches buffers of the TensorCore only. -/
theorem ops_sub : (opsA ++ opsB : List (HloOp τ sig (Elt F))).Forall fun op => op.bufs ⊆ tcRefs τ sig :=
  List.forall_iff_forall_mem.2 fun op h => (List.mem_append.1 h).elim
    (List.forall_iff_forall_mem.1 opsA_sub op) (List.forall_iff_forall_mem.1 opsB_sub op)

/-- The fold over the whole table is the fold over the second part of the fold over the first. -/
theorem after_split (V : Valuation τ sig (Elt F)) :
    StableHlo.after (opsA ++ opsB) V = StableHlo.after opsB (StableHlo.after opsA V) := by
  generalize (opsA : List (HloOp τ sig (Elt F))) = l
  induction l generalizing V with
  | nil => rfl
  | cons op l ih => exact ih (op.result V)

/-- On every device, for any float values, from any memory with zero counters: every weakly fair execution of
    @main terminates, and every final state has each buffer at the table's fold over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b)
        = StableHlo.after (opsA ++ opsB) (StableHlo.launchContents m d) (Proc.devRef .tc b) :=
  run_seq scopedRefs_eq scopedSems_eq defs main (fun _ => opsA ++ opsB) main_eq (fun _ => ops_sub) m ρ

end Cert.ReferenceIdeal.RefRun

end
-- ==== Proof.RefReads.lean ====
/-
  The reference program's table read at particular buffers, at the ideal floats.

  `tail_read`: the result, over any contents of the buffers before the second part of the table, is the sum
  over the lanes of the product of two row gathers of the layer sum divided by 4.0, the rows the
  user indices and the item indices offset by 60000, each wrapped into range as the gather's lowering wraps them.
  `kept_*`: no operation writes an argument buffer.  `sum_read`: the layer sum is the base embedding plus
  the three propagated layers, added left to right.
-/
import proofs.«118937_j27711128994136_1_alg».proof.Proof.RefRun
import Idealize.ShloMosaic.PureOps.Ideal

set_option maxRecDepth 16384

noncomputable section

namespace Cert.ReferenceIdeal.RefReads

open Cert.ReferenceIdeal Cert.ReferenceIdeal.RefRun Idealize.ShloMosaic Idealize.ShloMosaic.TcCoe Idealize.SL.Sem Idealize.ShloMosaic.StableHlo
open Cert.ReferenceIdeal.Facts₀ Cert.ReferenceIdeal.Facts

set_option maxHeartbeats 1000000 in
/-- The result buffer after the second part of the table, over any contents `Wa` before it: a function of the
    layer sum `main_v59` and of the user and item index arrays only. -/
theorem tail_read (Wa : Valuation τ sig (Elt Ideal)) :
    StableHlo.after opsB Wa (Proc.devRef .tc main_v79)
      = Host.reduceAdd
          (mulf
            (Host.gather gather_S100000x64_S16384x1_S16384x64_1_0_n_n_0_1_164
              (Host.divf (Wa (Proc.devRef .tc main_v59))
                (broadcastInDim S100000x64 ![] bcast_S_S100000x64 (constant (F := Ideal) S_ .f32 0x40800000#32)))
              (broadcastInDim S16384x1 ![0] bcast_S16384_S16384x1_0
                (select
                  (cmpi .slt (Wa (Proc.devRef .tc main_arg5))
                    (broadcastInDim S16384 ![] bcast_S_S16384 (constantI S_ 32 0#32)))
                  (addi (Wa (Proc.devRef .tc main_arg5)) (broadcastInDim S16384 ![] bcast_S_S16384 (constantI S_ 32 100000#32)))
                  (Wa (Proc.devRef .tc main_arg5)))))
            (Host.gather gather_S100000x64_S16384x1_S16384x64_1_0_n_n_0_1_164
              (Host.divf (Wa (Proc.devRef .tc main_v59))
                (broadcastInDim S100000x64 ![] bcast_S_S100000x64 (constant (F := Ideal) S_ .f32 0x40800000#32)))
              (broadcastInDim S16384x1 ![0] bcast_S16384_S16384x1_0
                (select
                  (cmpi .slt
                    (addi (broadcastInDim S16384 ![] bcast_S_S16384 (constantI S_ 32 60000#32)) (Wa (Proc.devRef .tc main_arg6)))
                    (broadcastInDim S16384 ![] bcast_S_S16384 (constantI S_ 32 0#32)))
                  (addi (addi (broadcastInDim S16384 ![] bcast_S_S16384 (constantI S_ 32 60000#32)) (Wa (Proc.devRef .tc main_arg6)))
                    (broadcastInDim S16384 ![] bcast_S_S16384 (constantI S_ 32 100000#32)))
                  (addi (broadcastInDim S16384 ![] bcast_S_S16384 (constantI S_ 32 60000#32)) (Wa (Proc.devRef .tc main_arg6)))))))
          (constant (F := Ideal) S_ .f32 0x00000000#32) reducesTo_S16384x64_S16384_d1 h_S_ := by
  after_results_simp

variable {F : FTy → Type} [FloatOps F]

/-! ## The argument buffers are kept

No operation of the table writes an argument buffer: through either part of the table, and so through the
whole of it, each argument buffer keeps its contents. -/

set_option maxHeartbeats 2000000 in
theorem keptA_arg0 (V : Valuation τ sig (Elt F)) :
    StableHlo.after opsA V (Proc.devRef .tc main_arg0) = V (Proc.devRef .tc main_arg0) := by
  after_results_simp
set_option maxHeartbeats 2000000 in
theorem keptB_arg0 (V : Valuation τ sig (Elt F)) :
    StableHlo.after opsB V (Proc.devRef .tc main_arg0) = V (Proc.devRef .tc main_arg0) := by
  after_results_simp
theorem kept_arg0 (V : Valuation τ sig (Elt F)) :
    StableHlo.after (opsA ++ opsB) V (Proc.devRef .tc main_arg0) = V (Proc.devRef .tc main_arg0) := by
  rw [after_split, keptB_arg0, keptA_arg0]

set_option maxHeartbeats 2000000 in
theorem keptA_arg1 (V : Valuation τ sig (Elt F)) :
    StableHlo.after opsA V (Proc.devRef .tc main_arg1) = V (Proc.devRef .tc main_arg1) := by
  after_results_simp
set_option maxHeartbeats 2000000 in
theorem keptB_arg1 (V : Valuation τ sig (Elt F)) :
    StableHlo.after opsB V (Proc.devRef .tc main_arg1) = V (Proc.devRef .tc main_arg1) := by
  after_results_simp
theorem kept_arg1 (V : Valuation τ sig (Elt F)) :
    StableHlo.after (opsA ++ opsB) V (Proc.devRef .tc main_arg1) = V (Proc.devRef .tc main_arg1) := by
  rw [after_split, keptB_arg1, keptA_arg1]

set_option maxHeartbeats 2000000 in
theorem keptA_arg2 (V : Valuation τ sig (Elt F)) :
    StableHlo.after opsA V (Proc.devRef .tc main_arg2) = V (Proc.devRef .tc main_arg2) := by
  after_results_simp
set_option maxHeartbeats 2000000 in
theorem keptB_arg2 (V : Valuation τ sig (Elt F)) :
    StableHlo.after opsB V (Proc.devRef .tc main_arg2) = V (Proc.devRef .tc main_arg2) := by
  after_results_simp
theorem kept_arg2 (V : Valuation τ sig (Elt F)) :
    StableHlo.after (opsA ++ opsB) V (Proc.devRef .tc main_arg2) = V (Proc.devRef .tc main_arg2) := by
  rw [after_split, keptB_arg2, keptA_arg2]

set_option maxHeartbeats 2000000 in
theorem keptA_arg3 (V : Valuation τ sig (Elt F)) :
    StableHlo.after opsA V (Proc.devRef .tc main_arg3) = V (Proc.devRef .tc main_arg3) := by
  after_results_simp
set_option maxHeartbeats 2000000 in
theorem keptB_arg3 (V : Valuation τ sig (Elt F)) :
    StableHlo.after opsB V (Proc.devRef .tc main_arg3) = V (Proc.devRef .tc main_arg3) := by
  after_results_simp
theorem kept_arg3 (V : Valuation τ sig (Elt F)) :
    StableHlo.after (opsA ++ opsB) V (Proc.devRef .tc main_arg3) = V (Proc.devRef .tc main_arg3) := by
  rw [after_split, keptB_arg3, keptA_arg3]

set_option maxHeartbeats 2000000 in
theorem keptA_arg4 (V : Valuation τ sig (Elt F)) :
    StableHlo.after opsA V (Proc.devRef .tc main_arg4) = V (Proc.devRef .tc main_arg4) := by
  after_results_simp
set_option maxHeartbeats 2000000 in
theorem keptB_arg4 (V : Valuation τ sig (Elt F)) :
    StableHlo.after opsB V (Proc.devRef .tc main_arg4) = V (Proc.devRef .tc main_arg4) := by
  after_results_simp
theorem kept_arg4 (V : Valuation τ sig (Elt F)) :
    StableHlo.after (opsA ++ opsB) V (Proc.devRef .tc main_arg4) = V (Proc.devRef .tc main_arg4) := by
  rw [after_split, keptB_arg4, keptA_arg4]

set_option maxHeartbeats 2000000 in
theorem keptA_arg5 (V : Valuation τ sig (Elt F)) :
    StableHlo.after opsA V (Proc.devRef .tc main_arg5) = V (Proc.devRef .tc main_arg5) := by
  after_results_simp
set_option maxHeartbeats 2000000 in
theorem keptB_arg5 (V : Valuation τ sig (Elt F)) :
    StableHlo.after opsB V (Proc.devRef .tc main_arg5) = V (Proc.devRef .tc main_arg5) := by
  after_results_simp
theorem kept_arg5 (V : Valuation τ sig (Elt F)) :
    StableHlo.after (opsA ++ opsB) V (Proc.devRef .tc main_arg5) = V (Proc.devRef .tc main_arg5) := by
  rw [after_split, keptB_arg5, keptA_arg5]

set_option maxHeartbeats 2000000 in
theorem keptA_arg6 (V : Valuation τ sig (Elt F)) :
    StableHlo.after opsA V (Proc.devRef .tc main_arg6) = V (Proc.devRef .tc main_arg6) := by
  after_results_simp
set_option maxHeartbeats 2000000 in
theorem keptB_arg6 (V : Valuation τ sig (Elt F)) :
    StableHlo.after opsB V (Proc.devRef .tc main_arg6) = V (Proc.devRef .tc main_arg6) := by
  after_results_simp
theorem kept_arg6 (V : Valuation τ sig (Elt F)) :
    StableHlo.after (opsA ++ opsB) V (Proc.devRef .tc main_arg6) = V (Proc.devRef .tc main_arg6) := by
  rw [after_split, keptB_arg6, keptA_arg6]

/-! ## The layer sum

The buffer `main_v59` is the base embedding `main_v17` plus the three propagated layers `main_v30`, `main_v44`,
`main_v58`, added left to right: both sides unfold to the same composed term of the argument buffers. -/

set_option maxHeartbeats 4000000 in
theorem sum_read (V : Valuation τ sig (Elt F)) :
    StableHlo.after opsA V (Proc.devRef .tc main_v59)
      = addf (addf (addf (StableHlo.after opsA V (Proc.devRef .tc main_v17)) (StableHlo.after opsA V (Proc.devRef .tc main_v30)))
          (StableHlo.after opsA V (Proc.devRef .tc main_v44))) (StableHlo.after opsA V (Proc.devRef .tc main_v58)) := by
  after_results_simp

end Cert.ReferenceIdeal.RefReads

end
-- ==== Proof.AvgValue.lean ====
/-
  What the layer-mean region leaves in its output array.

  The region runs over 49 grid points.  At point t each of its five windows is on rows 2048·t … 2048·t + 2047 of its
  [100352, 64] array (block index (t, 0), blocks of 2048 × 64), and the body stores, at every index of the block, the
  four input blocks' entries added left to right and multiplied by the literal 0.25.  So every point writes back the
  block of ONE whole-array function of the four input arrays, and the 49 blocks tile the array (49 · 2048 = 100352):
  the output array ends at that function, whatever it held before.
-/
import proofs.«118937_j27711128994136_1_alg».proof.Proof.Gen.KernelIdeal.Frame
import Idealize.ShloMosaic.Lib.Pipeline.Value

set_option maxRecDepth 16384

noncomputable section

namespace Cert.KernelIdeal.AvgValue

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The body's one load rectangle and one store rectangle start at the origin of the block. -/
theorem origin_zero : (![0, 0] : Fin 2 → Nat) = fun _ => 0 := funext fun a => by fin_cases a <;> rfl

/-- the layer mean at one index: the four arrays' sum, left to right, times the body's literal 0.25 -/
abbrev layerMean (a0 a1 a2 a3 : S100352x64.Idx → Elt F .f32) : S100352x64.Idx → Elt F .f32 :=
  fun i => FloatOps.mulf (FloatOps.addf (FloatOps.addf (FloatOps.addf (a0 i) (a1 i)) (a2 i)) (a3 i)) (Scalar.ofBits .f32 0x3E800000#32)

/-- The body's stored value, of its four loaded blocks: the casts between equal shapes dropped. -/
theorem mean_payload (x0 x1 x2 x3 : Vec F S2048x64 .f32) :
    k0_pay1 x0 x1 x2 x3
      = mulf (addf (addf (addf x0 x1) x2) x3) (broadcast S2048x64 (Scalar.ofBits .f32 0x3E800000#32)) := by
  unfold k0_pay1
  simp only [shapeCast_self]

/-- Every window's block index at grid point t is (t, 0), decided over the 49 points. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The body's output block at one index of the block, over any four loaded blocks: the one store covers the block,
    the four loads read the whole blocks, and the stored value there is the four entries added left to right, times 0.25. -/
theorem mean_at (x0 x1 x2 x3 : Vec F S2048x64 .f32) (j : S2048x64.Idx) :
    out0_4 x0 x1 x2 x3 j
      = FloatOps.mulf (FloatOps.addf (FloatOps.addf (FloatOps.addf (x0 j) (x1 j)) (x2 j)) (x3 j)) (Scalar.ofBits .f32 0x3E800000#32) := by
  unfold out0_4
  rw [View.canon_unit_zero origin_zero]
  simp only [View.ld_unit_zero (S := S2048x64) origin_zero]
  rw [mean_payload]
  rfl

/-- Input window 0's block at point t, at (p, q), is its array's entry at row 2048·t + p, column q. -/
theorem block_read0 (c : Dev nD) (t : Fin cfg0.N) (j : S2048x64.Idx) (i : S100352x64.Idx)
    (h0 : (i 0).val = 2048 * t.val + (j 0).val) (h1 : (i 1).val = (j 1).val) :
    (iblk0 V c 0 t : Vec F S2048x64 .f32) j = (V c (Pipeline.arrRef spec0 0) : S100352x64.Idx → Elt F .f32) i := by
  obtain ⟨a0, b0, a1, b1, a2, b2, a3, b3, -⟩ := block_index t
  unfold iblk0
  rw [View.read_apply]
  show (V c (Pipeline.arrRef spec0 0) : S100352x64.Idx → Elt F .f32) _ = _
  congr 1
  funext a
  apply Fin.ext
  match a with
  | ⟨0, _⟩ => show win0_0.index t (0 : Fin 2) * 2048 + 1 * (j 0).val = (i 0).val; omega
  | ⟨1, _⟩ => show win0_0.index t (1 : Fin 2) * 64 + 1 * (j 1).val = (i 1).val; omega

/-- Input window 1's block at point t, at (p, q), is its array's entry at row 2048·t + p, column q. -/
theorem block_read1 (c : Dev nD) (t : Fin cfg0.N) (j : S2048x64.Idx) (i : S100352x64.Idx)
    (h0 : (i 0).val = 2048 * t.val + (j 0).val) (h1 : (i 1).val = (j 1).val) :
    (iblk0 V c 1 t : Vec F S2048x64 .f32) j = (V c (Pipeline.arrRef spec0 1) : S100352x64.Idx → Elt F .f32) i := by
  obtain ⟨a0, b0, a1, b1, a2, b2, a3, b3, -⟩ := block_index t
  unfold iblk0
  rw [View.read_apply]
  show (V c (Pipeline.arrRef spec0 1) : S100352x64.Idx → Elt F .f32) _ = _
  congr 1
  funext a
  apply Fin.ext
  match a with
  | ⟨0, _⟩ => show win0_1.index t (0 : Fin 2) * 2048 + 1 * (j 0).val = (i 0).val; omega
  | ⟨1, _⟩ => show win0_1.index t (1 : Fin 2) * 64 + 1 * (j 1).val = (i 1).val; omega

/-- Input window 2's block at point t, at (p, q), is its array's entry at row 2048·t + p, column q. -/
theorem block_read2 (c : Dev nD) (t : Fin cfg0.N) (j : S2048x64.Idx) (i : S100352x64.Idx)
    (h0 : (i 0).val = 2048 * t.val + (j 0).val) (h1 : (i 1).val = (j 1).val) :
    (iblk0 V c 2 t : Vec F S2048x64 .f32) j = (V c (Pipeline.arrRef spec0 2) : S100352x64.Idx → Elt F .f32) i := by
  obtain ⟨a0, b0, a1, b1, a2, b2, a3, b3, -⟩ := block_index t
  unfold iblk0
  rw [View.read_apply]
  show (V c (Pipeline.arrRef spec0 2) : S100352x64.Idx → Elt F .f32) _ = _
  congr 1
  funext a
  apply Fin.ext
  match a with
  | ⟨0, _⟩ => show win0_2.index t (0 : Fin 2) * 2048 + 1 * (j 0).val = (i 0).val; omega
  | ⟨1, _⟩ => show win0_2.index t (1 : Fin 2) * 64 + 1 * (j 1).val = (i 1).val; omega

/-- Input window 3's block at point t, at (p, q), is its array's entry at row 2048·t + p, column q. -/
theorem block_read3 (c : Dev nD) (t : Fin cfg0.N) (j : S2048x64.Idx) (i : S100352x64.Idx)
    (h0 : (i 0).val = 2048 * t.val + (j 0).val) (h1 : (i 1).val = (j 1).val) :
    (iblk0 V c 3 t : Vec F S2048x64 .f32) j = (V c (Pipeline.arrRef spec0 3) : S100352x64.Idx → Elt F .f32) i := by
  obtain ⟨a0, b0, a1, b1, a2, b2, a3, b3, -⟩ := block_index t
  unfold iblk0
  rw [View.read_apply]
  show (V c (Pipeline.arrRef spec0 3) : S100352x64.Idx → Elt F .f32) _ = _
  congr 1
  funext a
  apply Fin.ext
  match a with
  | ⟨0, _⟩ => show win0_3.index t (0 : Fin 2) * 2048 + 1 * (j 0).val = (i 0).val; omega
  | ⟨1, _⟩ => show win0_3.index t (1 : Fin 2) * 64 + 1 * (j 1).val = (i 1).val; omega

/-- What point t writes back is block t of the layer mean of the four input arrays as the region finds them:
    an entry of an input block and the entry of the output block at the same place sit at the same array index. -/
theorem mean_block (c : Dev nD) (t : Fin cfg0.N) :
    (dat0 V c).flushed 4 t = ((cfg0.win 4).blk t).view.read (Elt F)
      (layerMean (V c (Pipeline.arrRef spec0 0)) (V c (Pipeline.arrRef spec0 1)) (V c (Pipeline.arrRef spec0 2)) (V c (Pipeline.arrRef spec0 3))) := by
  show (cfg0.win 4).cut (grid0.coords t) ((dat0 V c).after 4 t) = _
  rw [after0_4]
  funext j
  obtain ⟨-, -, -, -, -, -, -, -, a4, b4⟩ := block_index t
  have e0 : ((((cfg0.win 4).blk t).view.emb j : S100352x64.Idx) 0).val = 2048 * t.val + (j 0).val := by
    show win0_4.index t (0 : Fin 2) * 2048 + 1 * (j 0).val = _; omega
  have e1 : ((((cfg0.win 4).blk t).view.emb j : S100352x64.Idx) 1).val = (j 1).val := by
    show win0_4.index t (1 : Fin 2) * 64 + 1 * (j 1).val = _; omega
  refine (mean_at (iblk0 V c 0 t) (iblk0 V c 1 t) (iblk0 V c 2 t) (iblk0 V c 3 t) ((cfg0.win 4).xinj (grid0.coords t) j)).trans ?_
  exact congrArg₂ FloatOps.mulf
    (congrArg₂ FloatOps.addf
      (congrArg₂ FloatOps.addf
        (congrArg₂ FloatOps.addf
          (block_read0 V c t ((cfg0.win 4).xinj (grid0.coords t) j) (((cfg0.win 4).blk t).view.emb j) e0 e1)
          (block_read1 V c t ((cfg0.win 4).xinj (grid0.coords t) j) (((cfg0.win 4).blk t).view.emb j) e0 e1))
        (block_read2 V c t ((cfg0.win 4).xinj (grid0.coords t) j) (((cfg0.win 4).blk t).view.emb j) e0 e1))
      (block_read3 V c t ((cfg0.win 4).xinj (grid0.coords t) j) (((cfg0.win 4).blk t).view.emb j) e0 e1))
    rfl

/-- An index of the output array is in point t's block iff each coordinate is in the block's range on its axis. -/
theorem mem_block (t : Fin cfg0.N) (i : S100352x64.Idx) :
    i ∈ ((cfg0.win 4).blk t).view.set ↔ ∀ a : Fin 2, win0_4.index t a * S2048x64.size a ≤ (i a).val
      ∧ (i a).val < win0_4.index t a * S2048x64.size a + S2048x64.size a := by
  show i ∈ ((View.whole main_v61).slice (win0_4.rect t)).set ↔ _
  rw [View.set_slice_whole, Rect.mem_set_unit]
  exact Iff.rfl

/-- The 49 blocks tile the array: row r is in the block of point r / 2048, and every column is in every block. -/
theorem rows_covered (i : S100352x64.Idx) :
    ∃ t : Fin cfg0.N, (cfg0.win 4).flush t = true ∧ i ∈ ((cfg0.win 4).blk t).view.set := by
  have hi0 : (i 0).val < 100352 := (i 0).isLt
  have hi1 : (i 1).val < 64 := (i 1).isLt
  have hN : grid0.N = 49 := N_0
  obtain ⟨t, ht⟩ : ∃ t : Fin cfg0.N, t.val = (i 0).val / 2048 := ⟨⟨(i 0).val / 2048, by show _ < grid0.N; omega⟩, rfl⟩
  obtain ⟨-, -, -, -, -, -, -, -, a4, b4⟩ := block_index t
  refine ⟨t, flush0_4 t, ?_⟩
  rw [mem_block]
  intro a
  match a with
  | ⟨0, _⟩ => show win0_4.index t (0 : Fin 2) * 2048 ≤ (i 0).val ∧ (i 0).val < win0_4.index t (0 : Fin 2) * 2048 + 2048; omega
  | ⟨1, _⟩ => show win0_4.index t (1 : Fin 2) * 64 ≤ (i 1).val ∧ (i 1).val < win0_4.index t (1 : Fin 2) * 64 + 64; omega

/-- The output array after the region: the layer mean of the four input arrays as the region finds them. -/
theorem avg_final (c : Dev nD) : (dat0 (F := F) V c).arrAt 4 cfg0.N
      = layerMean (V c (Pipeline.arrRef spec0 0)) (V c (Pipeline.arrRef spec0 1)) (V c (Pipeline.arrRef spec0 2)) (V c (Pipeline.arrRef spec0 3)) :=
  (dat0 V c).arrAt_eq_of_cover 4
    (layerMean (V c (Pipeline.arrRef spec0 0)) (V c (Pipeline.arrRef spec0 1)) (V c (Pipeline.arrRef spec0 2)) (V c (Pipeline.arrRef spec0 3)))
    (fun t _ => mean_block V c t) rows_covered

end Cert.KernelIdeal.AvgValue

end
-- ==== Proof.DotValue.lean ====
/-
  What the row-dot region leaves in its output array.

  The region runs over 8 grid points.  At point t its two input windows are on rows 2048·t … 2048·t + 2047 of their
  [16384, 64] arrays, and its output window is on the same rows of the [16384, 1] array (block index (t, 0), blocks of
  2048 × 64 and 2048 × 1).  The body multiplies the two input blocks entry by entry, adds each row's 64 products (a
  reduction over the lanes into a zero accumulator: at the extended reals, the plain sum over the 64 lanes) and stores
  the 2048 sums as one column.  So every point writes back the block of ONE whole-array function of the two input
  arrays, row n's dot product, and the 8 blocks tile the array (8 · 2048 = 16384): the output array ends at that
  function, whatever it held before.
-/
import proofs.«118937_j27711128994136_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.DotValue

open Cert.KernelIdeal Cert.KernelIdeal.Gen Idealize.ShloMosaic Idealize.ShloMosaic.TcCoe Idealize.SL.Sem
open Idealize.ShloMosaic.Pipeline (Dat)
open Idealize.ShloMosaic.ValueIdx
open scoped BigOperators

variable (V : (c : Dev nD) → (b : Ref sig .tc) → Buf (Elt Ideal) ((c : Thread nD τ).loc b))

/-- The body's load rectangles and its store rectangle start at the origin of their blocks. -/
theorem origin_zero : (![0, 0] : Fin 2 → Nat) = fun _ => 0 := funext fun a => by fin_cases a <;> rfl

/-- row n's dot product: the sum over the 64 lanes of the products -/
abbrev rowDot (u v : S16384x64.Idx → EReal) : S16384x1.Idx → EReal :=
  fun i => ∑ k : Fin 64, u (ValueIdx.ix2 (⟨(i 0).val, (i 0).isLt⟩ : Fin 16384) k) * v (ValueIdx.ix2 (⟨(i 0).val, (i 0).isLt⟩ : Fin 16384) k)

/-- A vector of a entries cast to a one-column [a, 1] matrix reads, at (i, u), the vector at i: the two row-major
    positions are i and i · 1 + 0. -/
theorem shapeCast_column_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The body's stored value at (r, u), of its two loaded blocks: the sum over the 64 lanes of row r's products.
    The casts between equal shapes drop; the column cast reads the vector of row sums at r; the lane reduction into
    the zero accumulator is the sum over the lane coordinate, inserted after the row coordinate. -/
theorem dot_payload (x0 x1 : FVec Ideal S2048x64 .f32) (r : Fin 2048) (u : Fin 1) :
    k1_pay1 (F := Ideal) x0 x1 (ix2 r u) = ∑ k : Fin 64, x0 (ix2 r k) * x1 (ix2 r k) := by
  unfold k1_pay1
  simp only [shapeCast_self]
  refine (shapeCast_column_apply _ _ r u).trans ?_
  refine (Ideal.multiReduction_add_single (mulf x0 x1) 0x00000000#32 reduces_S2048x64_S2048 (.inl rfl) rfl (ix1 r)).trans ?_
  show ∑ k : Fin 64, mulf x0 x1 (reduces_S2048x64_S2048.lift (ix1 r) k) = _
  refine Finset.sum_congr rfl fun k _ => ?_
  have hk : reduces_S2048x64_S2048.lift (ix1 r) k = ix2 r k :=
    funext fun a => Fin.ext (by match a with | ⟨0, _⟩ => rfl | ⟨1, _⟩ => rfl)
  rw [hk]
  rfl

/-- The body's output block at one index of the block, over any two loaded blocks: the one store covers the block,
    the two loads read the whole blocks. -/
theorem dot_at (x0 x1 : Vec Ideal S2048x64 .f32) (j : S2048x1.Idx) :
    out1_2 x0 x1 j = ∑ k : Fin 64, x0 (ix2 (⟨(j 0).val, (j 0).isLt⟩ : Fin 2048) k) * x1 (ix2 (⟨(j 0).val, (j 0).isLt⟩ : Fin 2048) k) := by
  obtain ⟨r, u, rfl⟩ : ∃ (r : Fin 2048) (u : Fin 1), j = ix2 r u := ⟨j 0, j 1, eq_ix2 j⟩
  unfold out1_2
  rw [View.canon_unit_zero origin_zero]
  simp only [View.ld_unit_zero (S := S2048x64) origin_zero]
  exact dot_payload x0 x1 r u

/-- Every window's block index at grid point t is (t, 0), decided over the 8 points. -/
theorem block_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- Input window 0's block at point t, at (r, k), is its array's entry at row 2048·t + r, lane k. -/
theorem block_read0 (c : Dev nD) (t : Fin cfg1.N) (r : Fin 2048) (k : Fin 64) (n : Fin 16384)
    (hn : n.val = 2048 * t.val + r.val) :
    (iblk1 V c 0 t : Vec Ideal S2048x64 .f32) (ix2 r k) = (V c (Pipeline.arrRef spec1 0) : S16384x64.Idx → EReal) (ix2 n k) := by
  obtain ⟨a0, b0, a1, b1, -⟩ := block_index t
  unfold iblk1
  rw [View.read_apply]
  show (V c (Pipeline.arrRef spec1 0) : S16384x64.Idx → EReal) _ = _
  congr 1
  funext a
  apply Fin.ext
  match a with
  | ⟨0, _⟩ => show win1_0.index t (0 : Fin 2) * 2048 + 1 * r.val = n.val; omega
  | ⟨1, _⟩ => show win1_0.index t (1 : Fin 2) * 64 + 1 * k.val = k.val; omega

/-- Input window 1's block at point t, at (r, k), is its array's entry at row 2048·t + r, lane k. -/
theorem block_read1 (c : Dev nD) (t : Fin cfg1.N) (r : Fin 2048) (k : Fin 64) (n : Fin 16384)
    (hn : n.val = 2048 * t.val + r.val) :
    (iblk1 V c 1 t : Vec Ideal S2048x64 .f32) (ix2 r k) = (V c (Pipeline.arrRef spec1 1) : S16384x64.Idx → EReal) (ix2 n k) := by
  obtain ⟨a0, b0, a1, b1, -⟩ := block_index t
  unfold iblk1
  rw [View.read_apply]
  show (V c (Pipeline.arrRef spec1 1) : S16384x64.Idx → EReal) _ = _
  congr 1
  funext a
  apply Fin.ext
  match a with
  | ⟨0, _⟩ => show win1_1.index t (0 : Fin 2) * 2048 + 1 * r.val = n.val; omega
  | ⟨1, _⟩ => show win1_1.index t (1 : Fin 2) * 64 + 1 * k.val = k.val; omega

/-- What point t writes back is block t of the row dot products of the two input arrays as the region finds them:
    row r of the output block is row 2048·t + r of the array, and so are rows r of the two input blocks. -/
theorem dot_block (c : Dev nD) (t : Fin cfg1.N) :
    (dat1 V c).flushed 2 t = ((cfg1.win 2).blk t).view.read (Elt Ideal)
      (rowDot (V c (Pipeline.arrRef spec1 0)) (V c (Pipeline.arrRef spec1 1))) := by
  show (cfg1.win 2).cut (grid1.coords t) ((dat1 V c).after 2 t) = _
  rw [after1_2]
  funext j
  obtain ⟨-, -, -, -, a2, b2⟩ := block_index t
  have e0 : ((((cfg1.win 2).blk t).view.emb j : S16384x1.Idx) 0).val = 2048 * t.val + (j 0).val := by
    show win1_2.index t (0 : Fin 2) * 2048 + 1 * (j 0).val = _; omega
  refine (dot_at (iblk1 V c 0 t) (iblk1 V c 1 t) ((cfg1.win 2).xinj (grid1.coords t) j)).trans ?_
  refine Eq.trans ?_ (rfl : rowDot (V c (Pipeline.arrRef spec1 0)) (V c (Pipeline.arrRef spec1 1)) (((cfg1.win 2).blk t).view.emb j)
    = ((cfg1.win 2).blk t).view.read (Elt Ideal) (rowDot (V c (Pipeline.arrRef spec1 0)) (V c (Pipeline.arrRef spec1 1))) j)
  refine Finset.sum_congr (M := EReal) rfl fun k _ => ?_
  exact congrArg₂ (fun a b : EReal => a * b)
    (block_read0 V c t ⟨(j 0).val, (j 0).isLt⟩ k
      ⟨((((cfg1.win 2).blk t).view.emb j : S16384x1.Idx) 0).val, ((((cfg1.win 2).blk t).view.emb j : S16384x1.Idx) 0).isLt⟩ e0)
    (block_read1 V c t ⟨(j 0).val, (j 0).isLt⟩ k
      ⟨((((cfg1.win 2).blk t).view.emb j : S16384x1.Idx) 0).val, ((((cfg1.win 2).blk t).view.emb j : S16384x1.Idx) 0).isLt⟩ e0)

/-- An index of the output array is in point t's block iff each coordinate is in the block's range on its axis. -/
theorem mem_block (t : Fin cfg1.N) (i : S16384x1.Idx) :
    i ∈ ((cfg1.win 2).blk t).view.set ↔ ∀ a : Fin 2, win1_2.index t a * S2048x1.size a ≤ (i a).val
      ∧ (i a).val < win1_2.index t a * S2048x1.size a + S2048x1.size a := by
  show i ∈ ((View.whole main_v79).slice (win1_2.rect t)).set ↔ _
  rw [View.set_slice_whole, Rect.mem_set_unit]
  exact Iff.rfl

/-- The 8 blocks tile the array: row n is in the block of point n / 2048, and the one column is in every block. -/
theorem rows_covered (i : S16384x1.Idx) :
    ∃ t : Fin cfg1.N, (cfg1.win 2).flush t = true ∧ i ∈ ((cfg1.win 2).blk t).view.set := by
  have hi0 : (i 0).val < 16384 := (i 0).isLt
  have hi1 : (i 1).val < 1 := (i 1).isLt
  have hN : grid1.N = 8 := N_1
  obtain ⟨t, ht⟩ : ∃ t : Fin cfg1.N, t.val = (i 0).val / 2048 := ⟨⟨(i 0).val / 2048, by show _ < grid1.N; omega⟩, rfl⟩
  obtain ⟨-, -, -, -, a2, b2⟩ := block_index t
  refine ⟨t, flush1_2 t, ?_⟩
  rw [mem_block]
  intro a
  match a with
  | ⟨0, _⟩ => show win1_2.index t (0 : Fin 2) * 2048 ≤ (i 0).val ∧ (i 0).val < win1_2.index t (0 : Fin 2) * 2048 + 2048; omega
  | ⟨1, _⟩ => show win1_2.index t (1 : Fin 2) * 1 ≤ (i 1).val ∧ (i 1).val < win1_2.index t (1 : Fin 2) * 1 + 1; omega

/-- The output array after the region: the row dot products of the two input arrays as the region finds them. -/
theorem dot_final (c : Dev nD) : (dat1 (F := Ideal) V c).arrAt 2 cfg1.N
      = rowDot (V c (Pipeline.arrRef spec1 0)) (V c (Pipeline.arrRef spec1 1)) :=
  (dat1 V c).arrAt_eq_of_cover 2
    (rowDot (V c (Pipeline.arrRef spec1 0)) (V c (Pipeline.arrRef spec1 1)))
    (fun t _ => dot_block V c t) rows_covered

end Cert.KernelIdeal.DotValue

end
-- ==== Proof.KernelReads.lean ====
/-
  The idealized kernel's host operations around its two regions, read one stretch at a time.

  Between the launch and the layer-mean region the host computes the four [100000, 64] arrays (the composed
  embedding and the three propagated layers; here they stay closed, as the buffers `main_v17`, `main_v30`,
  `main_v43`, `main_v56` hold them after the fifth stretch) and pads each with 352 rows below.  Between the regions it cuts
  the first 100000 rows of the mean back out and gathers the users' rows and the items' rows (an index below zero
  counts from the end; the items sit 60000 rows down).  After the row-dot region it recasts the [16384, 1] column as
  a vector.  Each buffer is written once, so a later stretch keeps what an earlier one wrote.
-/
import proofs.«118937_j27711128994136_1_alg».proof.Proof.Gen.KernelIdeal.Frame
import Idealize.ShloMosaic.Lib.StableHlo.Run
import Idealize.ShloMosaic.PureOps.Ideal

set_option maxRecDepth 16384

noncomputable section

namespace Cert.KernelIdeal.Reads

open Idealize.ShloMosaic Idealize.ShloMosaic.TcCoe Idealize.SL.Sem Idealize.ShloMosaic.StableHlo
open Cert.KernelIdeal Cert.KernelIdeal.Gen

/-- No operation of the list writes the buffer. -/
macro "not_written" : tactic =>
  `(tactic| (refine List.forall_iff_forall_mem.mp ?_
             simp only [List.Forall, StableHlo.nullary_writes, StableHlo.unary_writes, StableHlo.binary_writes,
               StableHlo.ternary_writes, StableHlo.quaternary_writes, StableHlo.reshape_writes, StableHlo.binaryIndexed_writes,
               Finset.mem_singleton]
             repeat' apply And.intro
             all_goals exact StableHlo.devRef_ne_of_ne (by decide)))

/-- A stretch keeps a buffer none of its operations writes. -/
macro "kept" : term => `(StableHlo.after_of_forall_not_mem _ _ (by not_written))

/-! ## The rows the second region multiplies -/

/-- The rows of `L` the user indices name. -/
def userRows (L : FVec Ideal S100000x64 .f32) (u : IVec S16384 32) : FVec Ideal S16384x64 .f32 :=
  Host.gather gather_S100000x64_S16384x1_S16384x64_1_0_n_n_0_1_164 L
    (broadcastInDim S16384x1 ![0] bcast_S16384_S16384x1_0
      (select (cmpi CmpIPredicate.slt u (broadcastInDim S16384 ![] bcast_S_S16384 (constantI S_ 32 0#32)))
        (addi u (broadcastInDim S16384 ![] bcast_S_S16384 (constantI S_ 32 100000#32))) u))

/-- The rows of `L` the item indices name, 60000 rows down. -/
def itemRows (L : FVec Ideal S100000x64 .f32) (v : IVec S16384 32) : FVec Ideal S16384x64 .f32 :=
  Host.gather gather_S100000x64_S16384x1_S16384x64_1_0_n_n_0_1_164 L
    (broadcastInDim S16384x1 ![0] bcast_S16384_S16384x1_0
      (select
        (cmpi CmpIPredicate.slt (addi (broadcastInDim S16384 ![] bcast_S_S16384 (constantI S_ 32 60000#32)) v)
          (broadcastInDim S16384 ![] bcast_S_S16384 (constantI S_ 32 0#32)))
        (addi (addi (broadcastInDim S16384 ![] bcast_S_S16384 (constantI S_ 32 60000#32)) v)
          (broadcastInDim S16384 ![] bcast_S_S16384 (constantI S_ 32 100000#32)))
        (addi (broadcastInDim S16384 ![] bcast_S_S16384 (constantI S_ 32 60000#32)) v)))

/-! ## Each stretch, from any contents -/

/-- The stretch between the regions leaves the users' rows of the mean's first 100000 rows in `main_v69`. -/
theorem users_of (W : Valuation τ sig (Elt Ideal)) :
    StableHlo.after hostOps1 W (Proc.devRef .tc main_v69)
      = userRows (extractStridedSlice S100000x64 ![0, 0] (W (Proc.devRef .tc main_v61)) slices_S100352x64_S100000x64_0_0)
          (W (Proc.devRef .tc main_arg5)) := by
  after_results
  rfl

/-- … and the items' rows in `main_v78`. -/
theorem items_of (W : Valuation τ sig (Elt Ideal)) :
    StableHlo.after hostOps1 W (Proc.devRef .tc main_v78)
      = itemRows (extractStridedSlice S100000x64 ![0, 0] (W (Proc.devRef .tc main_v61)) slices_S100352x64_S100000x64_0_0)
          (W (Proc.devRef .tc main_arg6)) := by
  after_results
  rfl

/-- The last stretch recasts the column `main_v79` as the vector `main_v80`. -/
theorem result_of (W : Valuation τ sig (Elt Ideal)) :
    StableHlo.after hostOps2 W (Proc.devRef .tc main_v80)
      = shapeCast S16384 (W (Proc.devRef .tc main_v79)) shapeCasts_S16384x1_S16384 := by
  after_results
  rfl

/-- The four padding stretches: each pads its [100000, 64] array with 352 rows below, holding some value. -/
theorem pad0_of (W : Valuation τ sig (Elt Ideal)) : ∃ z : S_.Idx → Ideal .f32,
    StableHlo.after hostOps0_5 W (Proc.devRef .tc main_v57)
      = pad S100352x64 ![0, 0] ![352, 0] ![0, 0] (W (Proc.devRef .tc main_v17)) z pads_S100000x64_S100352x64_03520_000 h_S_ := by
  refine ⟨sitofp .f32 (W (Proc.devRef .tc main_c_13)), ?_⟩
  after_results
  rfl
theorem pad1_of (W : Valuation τ sig (Elt Ideal)) : ∃ z : S_.Idx → Ideal .f32,
    StableHlo.after hostOps0_7 W (Proc.devRef .tc main_v58)
      = pad S100352x64 ![0, 0] ![352, 0] ![0, 0] (W (Proc.devRef .tc main_v30)) z pads_S100000x64_S100352x64_03520_000 h_S_ := by
  refine ⟨sitofp .f32 (W (Proc.devRef .tc main_c_14)), ?_⟩
  after_results
  rfl
theorem pad2_of (W : Valuation τ sig (Elt Ideal)) : ∃ z : S_.Idx → Ideal .f32,
    StableHlo.after hostOps0_9 W (Proc.devRef .tc main_v59)
      = pad S100352x64 ![0, 0] ![352, 0] ![0, 0] (W (Proc.devRef .tc main_v43)) z pads_S100000x64_S100352x64_03520_000 h_S_ := by
  refine ⟨sitofp .f32 (W (Proc.devRef .tc main_c_15)), ?_⟩
  after_results
  rfl
theorem pad3_of (W : Valuation τ sig (Elt Ideal)) : ∃ z : S_.Idx → Ideal .f32,
    StableHlo.after hostOps0_11 W (Proc.devRef .tc main_v60)
      = pad S100352x64 ![0, 0] ![352, 0] ![0, 0] (W (Proc.devRef .tc main_v56)) z pads_S100000x64_S100352x64_03520_000 h_S_ := by
  refine ⟨sitofp .f32 (W (Proc.devRef .tc main_c_16)), ?_⟩
  after_results
  rfl

/-! ## The run's own boundaries -/

variable (m : (ℓ : Loc nD τ sig) → Buf (Elt Ideal) ℓ) (ρ : Dev nD → PrngReg)

/-- The user indices reach the stretch between the regions as launched. -/
theorem users_mid (c : Dev nD) : W13 m ρ c (Proc.devRef .tc main_arg5) = m ((c : Thread nD τ).loc main_arg5) := by
  have h1 : W16 m ρ c (Proc.devRef .tc main_arg5) = W15 m ρ c (Proc.devRef .tc main_arg5) := kept
  have h2 : W15 m ρ c (Proc.devRef .tc main_arg5) = W14 m ρ c (Proc.devRef .tc main_arg5) := W15_of_ne m ρ c main_arg5 (by decide)
  have h3 : W14 m ρ c (Proc.devRef .tc main_arg5) = W13 m ρ c (Proc.devRef .tc main_arg5) := kept
  rw [← h3, ← h2, ← h1]; exact W16_main_arg5 m ρ c

/-- … and so do the item indices. -/
theorem items_mid (c : Dev nD) : W13 m ρ c (Proc.devRef .tc main_arg6) = m ((c : Thread nD τ).loc main_arg6) := by
  have h1 : W16 m ρ c (Proc.devRef .tc main_arg6) = W15 m ρ c (Proc.devRef .tc main_arg6) := kept
  have h2 : W15 m ρ c (Proc.devRef .tc main_arg6) = W14 m ρ c (Proc.devRef .tc main_arg6) := W15_of_ne m ρ c main_arg6 (by decide)
  have h3 : W14 m ρ c (Proc.devRef .tc main_arg6) = W13 m ρ c (Proc.devRef .tc main_arg6) := kept
  rw [← h3, ← h2, ← h1]; exact W16_main_arg6 m ρ c

/-- What the layer-mean region leaves in its output array is what the next stretch finds in `main_v61`. -/
theorem mean_out (c : Dev nD) : W13 m ρ c (Proc.devRef .tc main_v61) = (dat0 (V12 m ρ) c).arrAt 4 cfg0.N := W13_arr m ρ c 4

/-- What the row-dot region leaves in its output array is what the last stretch finds in `main_v79`. -/
theorem dot_out (c : Dev nD) : W15 m ρ c (Proc.devRef .tc main_v79) = (dat1 (V14 m ρ) c).arrAt 2 cfg1.N := W15_arr m ρ c 2

/-- The row-dot region's first input: the users' rows of the mean's first 100000 rows. -/
theorem users_read (c : Dev nD) :
    V14 m ρ c main_v69
      = userRows (extractStridedSlice S100000x64 ![0, 0] ((dat0 (V12 m ρ) c).arrAt 4 cfg0.N) slices_S100352x64_S100000x64_0_0)
          (m ((c : Thread nD τ).loc main_arg5)) := by
  have h := users_of (W13 m ρ c)
  rw [mean_out m ρ c, users_mid m ρ c] at h
  exact h

/-- The row-dot region's second input: the items' rows. -/
theorem items_read (c : Dev nD) :
    V14 m ρ c main_v78
      = itemRows (extractStridedSlice S100000x64 ![0, 0] ((dat0 (V12 m ρ) c).arrAt 4 cfg0.N) slices_S100352x64_S100000x64_0_0)
          (m ((c : Thread nD τ).loc main_arg6)) := by
  have h := items_of (W13 m ρ c)
  rw [mean_out m ρ c, items_mid m ρ c] at h
  exact h

/-- The result: the row-dot region's column, recast as a vector. -/
theorem result_read (c : Dev nD) :
    W16 m ρ c (Proc.devRef .tc main_v80)
      = shapeCast S16384 ((dat1 (V14 m ρ) c).arrAt 2 cfg1.N) shapeCasts_S16384x1_S16384 := by
  have h := result_of (W15 m ρ c)
  rw [dot_out m ρ c] at h
  exact h

/-- The layer-mean region's four inputs: the four arrays, each padded with 352 rows below. -/
theorem pad0_read (c : Dev nD) : ∃ z : S_.Idx → Ideal .f32,
    V12 m ρ c main_v57
      = pad S100352x64 ![0, 0] ![352, 0] ![0, 0] (W5 m ρ c (Proc.devRef .tc main_v17)) z pads_S100000x64_S100352x64_03520_000 h_S_ := by
  obtain ⟨z, hz⟩ := pad0_of (W5 m ρ c)
  have k11 : W12 m ρ c (Proc.devRef .tc main_v57) = W11 m ρ c (Proc.devRef .tc main_v57) := kept
  have k10 : W11 m ρ c (Proc.devRef .tc main_v57) = W10 m ρ c (Proc.devRef .tc main_v57) := kept
  have k9 : W10 m ρ c (Proc.devRef .tc main_v57) = W9 m ρ c (Proc.devRef .tc main_v57) := kept
  have k8 : W9 m ρ c (Proc.devRef .tc main_v57) = W8 m ρ c (Proc.devRef .tc main_v57) := kept
  have k7 : W8 m ρ c (Proc.devRef .tc main_v57) = W7 m ρ c (Proc.devRef .tc main_v57) := kept
  have k6 : W7 m ρ c (Proc.devRef .tc main_v57) = W6 m ρ c (Proc.devRef .tc main_v57) := kept
  exact ⟨z, k11.trans (k10.trans (k9.trans (k8.trans (k7.trans (k6.trans hz)))))⟩

theorem pad1_read (c : Dev nD) : ∃ z : S_.Idx → Ideal .f32,
    V12 m ρ c main_v58
      = pad S100352x64 ![0, 0] ![352, 0] ![0, 0] (W5 m ρ c (Proc.devRef .tc main_v30)) z pads_S100000x64_S100352x64_03520_000 h_S_ := by
  obtain ⟨z, hz⟩ := pad1_of (W7 m ρ c)
  have s6 : W7 m ρ c (Proc.devRef .tc main_v30) = W6 m ρ c (Proc.devRef .tc main_v30) := kept
  have s5 : W6 m ρ c (Proc.devRef .tc main_v30) = W5 m ρ c (Proc.devRef .tc main_v30) := kept
  rw [s6.trans s5] at hz
  have k11 : W12 m ρ c (Proc.devRef .tc main_v58) = W11 m ρ c (Proc.devRef .tc main_v58) := kept
  have k10 : W11 m ρ c (Proc.devRef .tc main_v58) = W10 m ρ c (Proc.devRef .tc main_v58) := kept
  have k9 : W10 m ρ c (Proc.devRef .tc main_v58) = W9 m ρ c (Proc.devRef .tc main_v58) := kept
  have k8 : W9 m ρ c (Proc.devRef .tc main_v58) = W8 m ρ c (Proc.devRef .tc main_v58) := kept
  exact ⟨z, k11.trans (k10.trans (k9.trans (k8.trans hz)))⟩

theorem pad2_read (c : Dev nD) : ∃ z : S_.Idx → Ideal .f32,
    V12 m ρ c main_v59
      = pad S100352x64 ![0, 0] ![352, 0] ![0, 0] (W5 m ρ c (Proc.devRef .tc main_v43)) z pads_S100000x64_S100352x64_03520_000 h_S_ := by
  obtain ⟨z, hz⟩ := pad2_of (W9 m ρ c)
  have s8 : W9 m ρ c (Proc.devRef .tc main_v43) = W8 m ρ c (Proc.devRef .tc main_v43) := kept
  have s7 : W8 m ρ c (Proc.devRef .tc main_v43) = W7 m ρ c (Proc.devRef .tc main_v43) := kept
  have s6 : W7 m ρ c (Proc.devRef .tc main_v43) = W6 m ρ c (Proc.devRef .tc main_v43) := kept
  have s5 : W6 m ρ c (Proc.devRef .tc main_v43) = W5 m ρ c (Proc.devRef .tc main_v43) := kept
  rw [s8.trans (s7.trans (s6.trans s5))] at hz
  have k11 : W12 m ρ c (Proc.devRef .tc main_v59) = W11 m ρ c (Proc.devRef .tc main_v59) := kept
  have k10 : W11 m ρ c (Proc.devRef .tc main_v59) = W10 m ρ c (Proc.devRef .tc main_v59) := kept
  exact ⟨z, k11.trans (k10.trans hz)⟩

theorem pad3_read (c : Dev nD) : ∃ z : S_.Idx → Ideal .f32,
    V12 m ρ c main_v60
      = pad S100352x64 ![0, 0] ![352, 0] ![0, 0] (W5 m ρ c (Proc.devRef .tc main_v56)) z pads_S100000x64_S100352x64_03520_000 h_S_ := by
  obtain ⟨z, hz⟩ := pad3_of (W11 m ρ c)
  have s10 : W11 m ρ c (Proc.devRef .tc main_v56) = W10 m ρ c (Proc.devRef .tc main_v56) := kept
  have s9 : W10 m ρ c (Proc.devRef .tc main_v56) = W9 m ρ c (Proc.devRef .tc main_v56) := kept
  have s8 : W9 m ρ c (Proc.devRef .tc main_v56) = W8 m ρ c (Proc.devRef .tc main_v56) := kept
  have s7 : W8 m ρ c (Proc.devRef .tc main_v56) = W7 m ρ c (Proc.devRef .tc main_v56) := kept
  have s6 : W7 m ρ c (Proc.devRef .tc main_v56) = W6 m ρ c (Proc.devRef .tc main_v56) := kept
  have s5 : W6 m ρ c (Proc.devRef .tc main_v56) = W5 m ρ c (Proc.devRef .tc main_v56) := kept
  rw [s10.trans (s9.trans (s8.trans (s7.trans (s6.trans s5))))] at hz
  exact ⟨z, hz⟩

end Cert.KernelIdeal.Reads

end
-- ==== Proof.Laws.lean ====
/-
  The two laws that join the kernel's arithmetic to the reference's, over the extended reals, and the two constants
  they rest on.

  * The f32 words 0x3E800000 and 0x40800000 denote 1/4 and 4, and on EVERY extended real (the infinities included)
    multiplying by 1/4 is dividing by 4.
  * The layer mean.  Pad four [100000, 64] arrays with 352 rows below, add them left to right, scale by 1/4 and cut the
    first 100000 rows back out: that is the four arrays' sum, left to right, divided by 4.  The padding rows never reach
    the result, whatever they hold.
  * The row products.  A [16384, 1] column holding each row's sum over the 64 lanes of the products, recast as a
    vector, is the host's sum over axis 1 of the product array from the initial value 0.
-/
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value
import Idealize.ShloMosaic.Lib.KernelVsHost

noncomputable section

namespace Cert.Laws

open Idealize.ShloMosaic Idealize.ShloMosaic.ValueIdx

/-- entity rows, padded entity rows, batch rows, the batch column, the batch vector, a scalar -/
abbrev SE : Shape := ⟨2, ![100000, 64]⟩
abbrev SP : Shape := ⟨2, ![100352, 64]⟩
abbrev SB : Shape := ⟨2, ![16384, 64]⟩
abbrev SC : Shape := ⟨2, ![16384, 1]⟩
abbrev SV : Shape := ⟨1, ![16384]⟩
abbrev S0 : Shape := ⟨0, ![]⟩

/-- The word 0x3E800000 denotes 1/4. -/
theorem ofBits_quarter : Ideal.ofBits .f32 0x3E800000#32 = ((1 / 4 : ℝ) : EReal) := by
  simp [Ideal.ofBits, Ideal.ieee, -EReal.coe_mul]; norm_num

/-- The word 0x40800000 denotes 4. -/
theorem ofBits_four : Ideal.ofBits .f32 0x40800000#32 = ((4 : ℝ) : EReal) := by
  simp [Ideal.ofBits, Ideal.ieee, -EReal.coe_mul]; norm_num

/-- On every extended real, times the word for 1/4 is divided by the word for 4. -/
theorem quarter_mul (x : EReal) :
    x * Ideal.ofBits .f32 0x3E800000#32 = Ideal.div x (Ideal.ofBits .f32 0x40800000#32) := by
  rw [ofBits_quarter, ofBits_four, Ideal.div_coe (by norm_num : (4 : ℝ) ≠ 0)]

/-- THE LAYER MEAN.  The first 100000 rows of ((p0 + p1) + p2 + p3) · ¼, where each `p` is a [100000, 64] array padded
    with 352 rows below (holding anything), are the arrays' sum, left to right, divided by 4. -/
theorem mean_of_padded (e0 e1 e2 e3 : FVec Ideal SE .f32) (z0 z1 z2 z3 : S0.Idx → Ideal .f32)
    (hp : SE.Pads ![0, 0] ![352, 0] ![0, 0] SP) (hu : 0 < S0.numel) (hs : SP.Slices ![0, 0] SE)
    (hb : S0.BroadcastsInDim SE ![]) :
    extractStridedSlice SE ![0, 0]
        (fun i : SP.Idx =>
          (((pad SP ![0, 0] ![352, 0] ![0, 0] e0 z0 hp hu i + pad SP ![0, 0] ![352, 0] ![0, 0] e1 z1 hp hu i)
              + pad SP ![0, 0] ![352, 0] ![0, 0] e2 z2 hp hu i)
            + pad SP ![0, 0] ![352, 0] ![0, 0] e3 z3 hp hu i) * Ideal.ofBits .f32 0x3E800000#32) hs
      = Host.divf (addf (addf (addf e0 e1) e2) e3)
          (broadcastInDim SE ![] hb (constant (F := Ideal) S0 .f32 0x40800000#32)) := by
  funext j
  have hj0 : (j 0).val < 100000 := (j 0).isLt
  have hj1 : (j 1).val < 64 := (j 1).isLt
  -- the same row and lane of the padded array
  have hk : ∀ a : Fin SP.rank,
      ((ix2 (n0 := 100352) (n1 := 64) ⟨(j 0).val, by omega⟩ ⟨(j 1).val, hj1⟩ : SP.Idx) a).val
        = (![0, 0] : Fin SP.rank → Nat) a + (j (a.cast hs.1.symm)).val := fun a => by
    match a with
    | ⟨0, _⟩ => show (j 0).val = 0 + (j 0).val; omega
    | ⟨1, _⟩ => show (j 1).val = 0 + (j 1).val; omega
  rw [extractStridedSlice_apply _ _ hs j _ hk]
  -- a row below 100000 of a padded array is the array's own row
  have hin : ∀ a : Fin SE.rank,
      ((ix2 (n0 := 100352) (n1 := 64) ⟨(j 0).val, by omega⟩ ⟨(j 1).val, hj1⟩ : SP.Idx) (a.cast hp.1)).val
        = (![0, 0] : Fin SE.rank → Nat) a + (j a).val * ((![0, 0] : Fin SE.rank → Nat) a + 1) := fun a => by
    match a with
    | ⟨0, _⟩ => show (j 0).val = 0 + (j 0).val * (0 + 1); omega
    | ⟨1, _⟩ => show (j 1).val = 0 + (j 1).val * (0 + 1); omega
  show (((pad SP ![0, 0] ![352, 0] ![0, 0] e0 z0 hp hu _ + pad SP ![0, 0] ![352, 0] ![0, 0] e1 z1 hp hu _)
              + pad SP ![0, 0] ![352, 0] ![0, 0] e2 z2 hp hu _)
            + pad SP ![0, 0] ![352, 0] ![0, 0] e3 z3 hp hu _) * Ideal.ofBits .f32 0x3E800000#32 = _
  rw [pad_apply_of_inside _ _ _ e0 z0 hp hu _ j hin, pad_apply_of_inside _ _ _ e1 z1 hp hu _ j hin,
    pad_apply_of_inside _ _ _ e2 z2 hp hu _ j hin, pad_apply_of_inside _ _ _ e3 z3 hp hu _ j hin]
  rw [hostDivf_apply, addf_apply, addf_apply, addf_apply, broadcastInDim_scalar_apply, constant_apply]
  exact quarter_mul _

/-- THE ROW PRODUCTS.  The column of the rows' lane sums of `U · I`, recast as a vector, is the host's sum of the
    product array over axis 1 from the initial value 0. -/
theorem rows_sum (U I : FVec Ideal SB .f32) (hc : SC.ShapeCasts SV) (hr : SB.ReducesTo [1] SV) (hu : 0 < S0.numel) :
    shapeCast SV
        (fun i : SC.Idx => ∑ k : Fin 64, U (ix2 (⟨(i 0).val, (i 0).isLt⟩ : Fin 16384) k) * I (ix2 (⟨(i 0).val, (i 0).isLt⟩ : Fin 16384) k))
        hc
      = Host.reduceAdd (mulf U I) (constant (F := Ideal) S0 .f32 0x00000000#32) hr hu := by
  funext n
  have hn : (n 0).val < 16384 := (n 0).isLt
  have hR : SB.Reduces [1] SV := by decide
  rw [shapeCast_apply _ hc n (ix2 (n0 := 16384) (n1 := 1) ⟨(n 0).val, hn⟩ ⟨0, by decide⟩)
    (by rw [Shape.rowMajor_val_two, Shape.rowMajor_val_one]; show (n 0).val * 1 + 0 = (n 0).val; omega)]
  rw [hostReduceAdd_apply, Ideal.hostReduceAdd_single hr hR, constant_apply, Ideal.ofBits_zero_f32, zero_add]
  refine Finset.sum_congr rfl fun k _ => ?_
  rw [mulf_apply]
  have hl : hR.lift n k = ix2 (n0 := 16384) (n1 := 64) ⟨(n 0).val, hn⟩ k :=
    funext fun a => Fin.ext (by match a with | ⟨0, _⟩ => rfl | ⟨1, _⟩ => rfl)
  rw [hl]

end Cert.Laws

end
-- ==== Proof.KernelValue.lean ====
/-
  The idealized kernel's result as one function of the four host arrays and the two index arrays.

  The layer-mean region's output array is the four padded arrays' sum, left to right, times 1/4, index by index; the
  row-dot region's output column is each row's sum over the 64 lanes of the products of its two input arrays.  Chained
  through the host stretches between them — cut the first 100000 rows, gather the users' and the items' rows, recast the
  column — and through the two laws (the padding rows never reach the cut; times 1/4 is divided by 4; the column of lane
  sums recast is the host's sum over axis 1 from 0), the kernel's result is: the host sum over axis 1 of the product of
  the users' rows and the items' rows of (the four arrays' sum divided by 4).
-/
import proofs.«118937_j27711128994136_1_alg».proof.Proof.Gen.KernelIdeal.Frame
import proofs.«118937_j27711128994136_1_alg».proof.Proof.AvgValue
import proofs.«118937_j27711128994136_1_alg».proof.Proof.DotValue
import proofs.«118937_j27711128994136_1_alg».proof.Proof.KernelReads
import proofs.«118937_j27711128994136_1_alg».proof.Proof.Laws

set_option maxRecDepth 16384

noncomputable section

namespace Cert.KernelIdeal.Whole

open Idealize.ShloMosaic Idealize.ShloMosaic.TcCoe Idealize.SL.Sem Idealize.ShloMosaic.StableHlo
open Cert.KernelIdeal Cert.KernelIdeal.Gen Cert.KernelIdeal.Reads

/-- The mean of four layers, as the reference spells it: their sum, left to right, divided by the word for 4. -/
def meanOf (hb : S_.BroadcastsInDim S100000x64 ![]) (e0 e1 e2 e3 : FVec Ideal S100000x64 .f32) : FVec Ideal S100000x64 .f32 :=
  Host.divf (addf (addf (addf e0 e1) e2) e3) (broadcastInDim S100000x64 ![] hb (constant (F := Ideal) S_ .f32 0x40800000#32))

/-- The two laws, over any four arrays, any padding values and any index arrays. -/
theorem chain_law (e0 e1 e2 e3 : FVec Ideal S100000x64 .f32) (z0 z1 z2 z3 : S_.Idx → Ideal .f32) (a5 a6 : IVec S16384 32)
    (hr : S16384x64.ReducesTo [1] S16384) (hb : S_.BroadcastsInDim S100000x64 ![]) :
    shapeCast S16384
        (DotValue.rowDot
          (userRows (extractStridedSlice S100000x64 ![0, 0]
            (AvgValue.layerMean (F := Ideal)
              (pad S100352x64 ![0, 0] ![352, 0] ![0, 0] e0 z0 pads_S100000x64_S100352x64_03520_000 h_S_)
              (pad S100352x64 ![0, 0] ![352, 0] ![0, 0] e1 z1 pads_S100000x64_S100352x64_03520_000 h_S_)
              (pad S100352x64 ![0, 0] ![352, 0] ![0, 0] e2 z2 pads_S100000x64_S100352x64_03520_000 h_S_)
              (pad S100352x64 ![0, 0] ![352, 0] ![0, 0] e3 z3 pads_S100000x64_S100352x64_03520_000 h_S_))
            slices_S100352x64_S100000x64_0_0) a5)
          (itemRows (extractStridedSlice S100000x64 ![0, 0]
            (AvgValue.layerMean (F := Ideal)
              (pad S100352x64 ![0, 0] ![352, 0] ![0, 0] e0 z0 pads_S100000x64_S100352x64_03520_000 h_S_)
              (pad S100352x64 ![0, 0] ![352, 0] ![0, 0] e1 z1 pads_S100000x64_S100352x64_03520_000 h_S_)
              (pad S100352x64 ![0, 0] ![352, 0] ![0, 0] e2 z2 pads_S100000x64_S100352x64_03520_000 h_S_)
              (pad S100352x64 ![0, 0] ![352, 0] ![0, 0] e3 z3 pads_S100000x64_S100352x64_03520_000 h_S_))
            slices_S100352x64_S100000x64_0_0) a6))
        shapeCasts_S16384x1_S16384
      = Host.reduceAdd (mulf (userRows (meanOf hb e0 e1 e2 e3) a5) (itemRows (meanOf hb e0 e1 e2 e3) a6))
          (constant (F := Ideal) S_ .f32 0x00000000#32) hr h_S_ := by
  have hL : extractStridedSlice S100000x64 ![0, 0]
      (AvgValue.layerMean (F := Ideal)
        (pad S100352x64 ![0, 0] ![352, 0] ![0, 0] e0 z0 pads_S100000x64_S100352x64_03520_000 h_S_)
        (pad S100352x64 ![0, 0] ![352, 0] ![0, 0] e1 z1 pads_S100000x64_S100352x64_03520_000 h_S_)
        (pad S100352x64 ![0, 0] ![352, 0] ![0, 0] e2 z2 pads_S100000x64_S100352x64_03520_000 h_S_)
        (pad S100352x64 ![0, 0] ![352, 0] ![0, 0] e3 z3 pads_S100000x64_S100352x64_03520_000 h_S_))
      slices_S100352x64_S100000x64_0_0 = meanOf hb e0 e1 e2 e3 :=
    Cert.Laws.mean_of_padded e0 e1 e2 e3 z0 z1 z2 z3 pads_S100000x64_S100352x64_03520_000 h_S_
      slices_S100352x64_S100000x64_0_0 hb
  rw [hL]
  exact Cert.Laws.rows_sum _ _ shapeCasts_S16384x1_S16384 hr h_S_

variable (m : (ℓ : Loc nD τ sig) → Buf (Elt Ideal) ℓ) (ρ : Dev nD → PrngReg)

/-- THE KERNEL'S RESULT: the host sum over axis 1 of the product of the users' rows and the items' rows of the mean of
    the four host arrays (as the fifth stretch leaves them), the indices as launched. -/
theorem result_eq (c : Dev nD) (hr : S16384x64.ReducesTo [1] S16384) (hb : S_.BroadcastsInDim S100000x64 ![]) :
    W16 m ρ c (Proc.devRef .tc main_v80)
      = Host.reduceAdd
          (mulf
            (userRows (meanOf hb (W5 m ρ c (Proc.devRef .tc main_v17)) (W5 m ρ c (Proc.devRef .tc main_v30))
              (W5 m ρ c (Proc.devRef .tc main_v43)) (W5 m ρ c (Proc.devRef .tc main_v56))) (m ((c : Thread nD τ).loc main_arg5)))
            (itemRows (meanOf hb (W5 m ρ c (Proc.devRef .tc main_v17)) (W5 m ρ c (Proc.devRef .tc main_v30))
              (W5 m ρ c (Proc.devRef .tc main_v43)) (W5 m ρ c (Proc.devRef .tc main_v56))) (m ((c : Thread nD τ).loc main_arg6))))
          (constant (F := Ideal) S_ .f32 0x00000000#32) hr h_S_ := by
  obtain ⟨z0, h0⟩ := pad0_read m ρ c
  obtain ⟨z1, h1⟩ := pad1_read m ρ c
  obtain ⟨z2, h2⟩ := pad2_read m ρ c
  obtain ⟨z3, h3⟩ := pad3_read m ρ c
  -- the windows' arrays are these buffers
  have a0 : V12 m ρ c (Pipeline.arrRef spec0 0) = _ := h0
  have a1 : V12 m ρ c (Pipeline.arrRef spec0 1) = _ := h1
  have a2 : V12 m ρ c (Pipeline.arrRef spec0 2) = _ := h2
  have a3 : V12 m ρ c (Pipeline.arrRef spec0 3) = _ := h3
  have u0 : V14 m ρ c (Pipeline.arrRef spec1 0) = _ := users_read m ρ c
  have u1 : V14 m ρ c (Pipeline.arrRef spec1 1) = _ := items_read m ρ c
  rw [result_read m ρ c, DotValue.dot_final (V14 m ρ) c, u0, u1, AvgValue.avg_final (V12 m ρ) c, a0, a1, a2, a3]
  exact chain_law _ _ _ _ z0 z1 z2 z3 _ _ hr hb

end Cert.KernelIdeal.Whole

end
-- ==== Proof.PrefixEq.lean ====
/-
  The two programs' host prefixes compute the same four arrays.

  Before its first region the idealized kernel's @main computes, on the host, the composed embedding (rows of the two
  factor tables gathered at i / 49 and i mod 2048, each index wrapped into range, and added) and three propagated
  layers (each the scatter-add, at the edges' rows, of the previous layer's rows at the edges' columns times the
  edges' values).  The reference's @main computes the same four arrays by the same operations; it only orders them
  differently (the kernel computes both index arrays before both gathers, the reference one after the other) and adds
  the layers up as it goes.  Every buffer is written once, so after the prefix a buffer holds its operations' composed
  term of the five argument arrays: the two factor tables, the edges' values, rows and columns.  The two programs'
  terms are the same term, whatever contents the two runs start from, as long as the five argument arrays agree.
-/
import proofs.«118937_j27711128994136_1_alg».proof.Proof.Gen.KernelIdeal.Frame
import proofs.«118937_j27711128994136_1_alg».proof.Proof.RefRun
import Idealize.ShloMosaic.PureOps.Ideal

set_option maxRecDepth 16384

noncomputable section

namespace Cert.PrefixEq

open Idealize.ShloMosaic Idealize.ShloMosaic.TcCoe Idealize.SL.Sem Idealize.ShloMosaic.StableHlo

/-! ## Over any contents the two prefixes start from -/

set_option maxHeartbeats 2000000 in
/-- The composed embedding: the kernel's `main_v17` and the reference's `main_v17` are the same term of the two factor tables. -/
theorem emb_fold (W : Valuation Cert.KernelIdeal.τ Cert.KernelIdeal.sig (Elt Ideal))
    (W' : Valuation Cert.ReferenceIdeal.τ Cert.ReferenceIdeal.sig (Elt Ideal))
    (e0 : W (Proc.devRef .tc Cert.KernelIdeal.main_arg0) = W' (Proc.devRef .tc Cert.ReferenceIdeal.main_arg0))
    (e1 : W (Proc.devRef .tc Cert.KernelIdeal.main_arg1) = W' (Proc.devRef .tc Cert.ReferenceIdeal.main_arg1)) :
    StableHlo.after (Cert.KernelIdeal.Gen.hostOps0_4 (F := Ideal))
        (StableHlo.after (Cert.KernelIdeal.Gen.hostOps0_3 (F := Ideal))
          (StableHlo.after (Cert.KernelIdeal.Gen.hostOps0_2 (F := Ideal))
            (StableHlo.after (Cert.KernelIdeal.Gen.hostOps0_1 (F := Ideal))
              (StableHlo.after (Cert.KernelIdeal.Gen.hostOps0 (F := Ideal)) W))))
        (Proc.devRef .tc Cert.KernelIdeal.main_v17)
      = StableHlo.after (Cert.ReferenceIdeal.RefRun.opsA (F := Ideal)) W' (Proc.devRef .tc Cert.ReferenceIdeal.main_v17) := by
  after_results_simp
  rw [e0, e1]
  rfl

set_option maxHeartbeats 4000000 in
/-- The first propagated layer: the kernel's `main_v30` and the reference's `main_v30` are the same term of the five argument arrays. -/
theorem layer1_fold (W : Valuation Cert.KernelIdeal.τ Cert.KernelIdeal.sig (Elt Ideal))
    (W' : Valuation Cert.ReferenceIdeal.τ Cert.ReferenceIdeal.sig (Elt Ideal))
    (e0 : W (Proc.devRef .tc Cert.KernelIdeal.main_arg0) = W' (Proc.devRef .tc Cert.ReferenceIdeal.main_arg0))
    (e1 : W (Proc.devRef .tc Cert.KernelIdeal.main_arg1) = W' (Proc.devRef .tc Cert.ReferenceIdeal.main_arg1))
    (e2 : W (Proc.devRef .tc Cert.KernelIdeal.main_arg2) = W' (Proc.devRef .tc Cert.ReferenceIdeal.main_arg2))
    (e3 : W (Proc.devRef .tc Cert.KernelIdeal.main_arg3) = W' (Proc.devRef .tc Cert.ReferenceIdeal.main_arg3))
    (e4 : W (Proc.devRef .tc Cert.KernelIdeal.main_arg4) = W' (Proc.devRef .tc Cert.ReferenceIdeal.main_arg4)) :
    StableHlo.after (Cert.KernelIdeal.Gen.hostOps0_4 (F := Ideal))
        (StableHlo.after (Cert.KernelIdeal.Gen.hostOps0_3 (F := Ideal))
          (StableHlo.after (Cert.KernelIdeal.Gen.hostOps0_2 (F := Ideal))
            (StableHlo.after (Cert.KernelIdeal.Gen.hostOps0_1 (F := Ideal))
              (StableHlo.after (Cert.KernelIdeal.Gen.hostOps0 (F := Ideal)) W))))
        (Proc.devRef .tc Cert.KernelIdeal.main_v30)
      = StableHlo.after (Cert.ReferenceIdeal.RefRun.opsA (F := Ideal)) W' (Proc.devRef .tc Cert.ReferenceIdeal.main_v30) := by
  after_results_simp
  rw [e0, e1, e2, e3, e4]
  rfl

set_option maxHeartbeats 4000000 in
/-- The second propagated layer: the kernel's `main_v43` and the reference's `main_v44` are the same term of the five argument arrays. -/
theorem layer2_fold (W : Valuation Cert.KernelIdeal.τ Cert.KernelIdeal.sig (Elt Ideal))
    (W' : Valuation Cert.ReferenceIdeal.τ Cert.ReferenceIdeal.sig (Elt Ideal))
    (e0 : W (Proc.devRef .tc Cert.KernelIdeal.main_arg0) = W' (Proc.devRef .tc Cert.ReferenceIdeal.main_arg0))
    (e1 : W (Proc.devRef .tc Cert.KernelIdeal.main_arg1) = W' (Proc.devRef .tc Cert.ReferenceIdeal.main_arg1))
    (e2 : W (Proc.devRef .tc Cert.KernelIdeal.main_arg2) = W' (Proc.devRef .tc Cert.ReferenceIdeal.main_arg2))
    (e3 : W (Proc.devRef .tc Cert.KernelIdeal.main_arg3) = W' (Proc.devRef .tc Cert.ReferenceIdeal.main_arg3))
    (e4 : W (Proc.devRef .tc Cert.KernelIdeal.main_arg4) = W' (Proc.devRef .tc Cert.ReferenceIdeal.main_arg4)) :
    StableHlo.after (Cert.KernelIdeal.Gen.hostOps0_4 (F := Ideal))
        (StableHlo.after (Cert.KernelIdeal.Gen.hostOps0_3 (F := Ideal))
          (StableHlo.after (Cert.KernelIdeal.Gen.hostOps0_2 (F := Ideal))
            (StableHlo.after (Cert.KernelIdeal.Gen.hostOps0_1 (F := Ideal))
              (StableHlo.after (Cert.KernelIdeal.Gen.hostOps0 (F := Ideal)) W))))
        (Proc.devRef .tc Cert.KernelIdeal.main_v43)
      = StableHlo.after (Cert.ReferenceIdeal.RefRun.opsA (F := Ideal)) W' (Proc.devRef .tc Cert.ReferenceIdeal.main_v44) := by
  after_results_simp
  rw [e0, e1, e2, e3, e4]
  rfl

/-! ## At the two runs' launch contents -/

/-- The composed embedding, after the kernel's first five stretches of host operations and after the reference's first 111 operations. -/
theorem emb_eq (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.KernelIdeal.Gen.W5 (F := Ideal) m ρ c (Proc.devRef .tc Cert.KernelIdeal.main_v17)
      = StableHlo.after (Cert.ReferenceIdeal.RefRun.opsA (F := Ideal)) (StableHlo.launchContents m' c) (Proc.devRef .tc Cert.ReferenceIdeal.main_v17) := by
  dsimp only [Cert.KernelIdeal.Gen.W5, Cert.KernelIdeal.Gen.W4, Cert.KernelIdeal.Gen.W3, Cert.KernelIdeal.Gen.W2, Cert.KernelIdeal.Gen.W1]
  exact emb_fold (Cert.KernelIdeal.Gen.W0 m ρ c) (StableHlo.launchContents m' c) h0.symm h1.symm

/-- The first propagated layer, likewise. -/
theorem layer1_eq (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.KernelIdeal.Gen.W5 (F := Ideal) m ρ c (Proc.devRef .tc Cert.KernelIdeal.main_v30)
      = StableHlo.after (Cert.ReferenceIdeal.RefRun.opsA (F := Ideal)) (StableHlo.launchContents m' c) (Proc.devRef .tc Cert.ReferenceIdeal.main_v30) := by
  dsimp only [Cert.KernelIdeal.Gen.W5, Cert.KernelIdeal.Gen.W4, Cert.KernelIdeal.Gen.W3, Cert.KernelIdeal.Gen.W2, Cert.KernelIdeal.Gen.W1]
  exact layer1_fold (Cert.KernelIdeal.Gen.W0 m ρ c) (StableHlo.launchContents m' c) h0.symm h1.symm h2.symm h3.symm h4.symm

/-- The second propagated layer, likewise: the kernel keeps it in `main_v43`, the reference in `main_v44`. -/
theorem layer2_eq (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.KernelIdeal.Gen.W5 (F := Ideal) m ρ c (Proc.devRef .tc Cert.KernelIdeal.main_v43)
      = StableHlo.after (Cert.ReferenceIdeal.RefRun.opsA (F := Ideal)) (StableHlo.launchContents m' c) (Proc.devRef .tc Cert.ReferenceIdeal.main_v44) := by
  dsimp only [Cert.KernelIdeal.Gen.W5, Cert.KernelIdeal.Gen.W4, Cert.KernelIdeal.Gen.W3, Cert.KernelIdeal.Gen.W2, Cert.KernelIdeal.Gen.W1]
  exact layer2_fold (Cert.KernelIdeal.Gen.W0 m ρ c) (StableHlo.launchContents m' c) h0.symm h1.symm h2.symm h3.symm h4.symm

end Cert.PrefixEq

end
-- ==== Proof.PrefixEq3.lean ====
/-
  The third propagated layer is the same function of the five graph and embedding arguments in both programs.

  On the kernel's side the layer is the buffer `main_v56` after the first five stretches of host operations; on the
  reference's side it is `main_v58` after the first part of its table.  Both unfold to one composed term: the base
  embedding gathered along the wrapped column indices, scaled by the edge values and scatter-added along the row
  indices, three times over.  The two programs state their shape evidence separately; the terms differ in those
  proofs only.
-/
import proofs.«118937_j27711128994136_1_alg».proof.Proof.Gen.KernelIdeal.Frame
import proofs.«118937_j27711128994136_1_alg».proof.Proof.RefRun
import Idealize.ShloMosaic.PureOps.Ideal

set_option maxRecDepth 16384

noncomputable section

namespace Cert.PrefixEq

open Idealize.ShloMosaic Idealize.ShloMosaic.TcCoe Idealize.SL.Sem Idealize.ShloMosaic.StableHlo

set_option maxHeartbeats 16000000 in
/-- Over any two valuations that agree on the five arguments the layer reads. -/
theorem layer3_fold
    (W : Valuation Cert.KernelIdeal.τ Cert.KernelIdeal.sig (Elt Ideal))
    (W' : Valuation Cert.ReferenceIdeal.τ Cert.ReferenceIdeal.sig (Elt Ideal))
    (e0 : W (Proc.devRef .tc Cert.KernelIdeal.main_arg0) = W' (Proc.devRef .tc Cert.ReferenceIdeal.main_arg0))
    (e1 : W (Proc.devRef .tc Cert.KernelIdeal.main_arg1) = W' (Proc.devRef .tc Cert.ReferenceIdeal.main_arg1))
    (e2 : W (Proc.devRef .tc Cert.KernelIdeal.main_arg2) = W' (Proc.devRef .tc Cert.ReferenceIdeal.main_arg2))
    (e3 : W (Proc.devRef .tc Cert.KernelIdeal.main_arg3) = W' (Proc.devRef .tc Cert.ReferenceIdeal.main_arg3))
    (e4 : W (Proc.devRef .tc Cert.KernelIdeal.main_arg4) = W' (Proc.devRef .tc Cert.ReferenceIdeal.main_arg4)) :
    StableHlo.after Cert.KernelIdeal.Gen.hostOps0_4 (StableHlo.after Cert.KernelIdeal.Gen.hostOps0_3
        (StableHlo.after Cert.KernelIdeal.Gen.hostOps0_2 (StableHlo.after Cert.KernelIdeal.Gen.hostOps0_1
          (StableHlo.after Cert.KernelIdeal.Gen.hostOps0 W)))) (Proc.devRef .tc Cert.KernelIdeal.main_v56)
      = StableHlo.after Cert.ReferenceIdeal.RefRun.opsA W' (Proc.devRef .tc Cert.ReferenceIdeal.main_v58) := by
  after_results_simp
  rw [e0, e1, e2, e3, e4]
  rfl

/-- The same at the two programs' memories: the kernel's buffer after its first five stretches from the launch memory
    `m`, the reference's after the first part of its table from the launch memory `m'`, the five arguments equal. -/
theorem layer3_eq
    (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4)) :
    Cert.KernelIdeal.Gen.W5 (F := Ideal) m ρ c (Proc.devRef .tc Cert.KernelIdeal.main_v56)
      = StableHlo.after Cert.ReferenceIdeal.RefRun.opsA (StableHlo.launchContents m' c) (Proc.devRef .tc Cert.ReferenceIdeal.main_v58) := by
  dsimp only [Cert.KernelIdeal.Gen.W5, Cert.KernelIdeal.Gen.W4, Cert.KernelIdeal.Gen.W3, Cert.KernelIdeal.Gen.W2, Cert.KernelIdeal.Gen.W1]
  exact layer3_fold (Cert.KernelIdeal.Gen.W0 m ρ c) (StableHlo.launchContents m' c) h0.symm h1.symm h2.symm h3.symm h4.symm

end Cert.PrefixEq

end
-- ==== Proof.Bridge.lean ====
/-
  The two programs' results are one function of the arguments.

  The reference's @main is a fold of 138 host operations over its launch memory.  Its last 27 operations divide the
  sum of the four layers by 4, gather the users' and the items' rows of that mean, multiply them and sum over axis 1.
  The operations before them compute the four layers — the composed embedding and the three propagated layers — and
  add them left to right; those four arrays are, buffer for buffer, what the kernel's first five stretches of host
  operations compute from the same arguments.  The kernel's result is the same sum over axis 1 of the same products of
  the same rows of the same mean: the two terms then differ only in which program's shape facts they cite.
-/
import proofs.«118937_j27711128994136_1_alg».proof.Proof.Gen.KernelIdeal.Frame
import proofs.«118937_j27711128994136_1_alg».proof.Proof.KernelValue
import proofs.«118937_j27711128994136_1_alg».proof.Proof.RefRun
import proofs.«118937_j27711128994136_1_alg».proof.Proof.RefReads
import proofs.«118937_j27711128994136_1_alg».proof.Proof.PrefixEq
import proofs.«118937_j27711128994136_1_alg».proof.Proof.PrefixEq3

set_option maxRecDepth 16384

noncomputable section

namespace Cert.Bridge

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)

/-- From memories that agree on the seven arguments, the reference's result buffer after its whole fold is the
    kernel's result buffer after its sixteen segments. -/
theorem results_agree (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    StableHlo.after (Cert.ReferenceIdeal.RefRun.opsA ++ Cert.ReferenceIdeal.RefRun.opsB) (StableHlo.launchContents m' c)
        (Proc.devRef .tc Cert.ReferenceIdeal.main_v79)
      = Cert.KernelIdeal.Gen.W16 m ρ c (Proc.devRef .tc Cert.KernelIdeal.main_v80) := by
  -- the reference: its last 27 operations over what the first 111 leave
  rw [Cert.ReferenceIdeal.RefRun.after_split, Cert.ReferenceIdeal.RefReads.tail_read,
    Cert.ReferenceIdeal.RefReads.keptA_arg5, Cert.ReferenceIdeal.RefReads.keptA_arg6,
    Cert.ReferenceIdeal.RefReads.sum_read]
  -- the four layers are the kernel's
  rw [← Cert.PrefixEq.emb_eq m ρ m' c h0 h1 h2 h3 h4, ← Cert.PrefixEq.layer1_eq m ρ m' c h0 h1 h2 h3 h4,
    ← Cert.PrefixEq.layer2_eq m ρ m' c h0 h1 h2 h3 h4, ← Cert.PrefixEq.layer3_eq m ρ m' c h0 h1 h2 h3 h4]
  -- the index arrays are the kernel's
  rw [show StableHlo.launchContents m' c (Proc.devRef .tc Cert.ReferenceIdeal.main_arg5)
        = m ((c.tc : Thread Cert.KernelIdeal.nD Cert.KernelIdeal.τ).loc Cert.KernelIdeal.main_arg5) from h5,
    show StableHlo.launchContents m' c (Proc.devRef .tc Cert.ReferenceIdeal.main_arg6)
        = m ((c.tc : Thread Cert.KernelIdeal.nD Cert.KernelIdeal.τ).loc Cert.KernelIdeal.main_arg6) from h6]
  -- the kernel
  rw [Cert.KernelIdeal.Whole.result_eq m ρ c (by decide) (by decide)]
  unfold Cert.KernelIdeal.Reads.userRows Cert.KernelIdeal.Reads.itemRows Cert.KernelIdeal.Whole.meanOf
  rfl

end Cert.Bridge

end
-- ==== Proof.lean ====
/-
  Kernel against reference: a LightGCN forward pass.

  Both programs build, on the host, the composed embedding of 100000 entities (a row of Q_v plus a row of R_v), three
  propagated layers (gather the columns' rows, scale by the edge values, scatter-add into the rows' entities), and the
  dot products of 16384 user rows with 16384 item rows of the four layers' mean.  The kernel takes the mean in one
  tiled region over arrays padded to 100352 rows, as the sum times 1/4, and the dot products in a second tiled region as
  lane sums; the reference divides the sum by 4 and sums over axis 1 on the host.  Over the extended reals the two results
  are one function of the arguments: the padding rows are cut away before anything reads them, times 1/4 is divided by 4
  at every extended real, and a lane sum is the host's sum from 0.  No finiteness of the inputs is used.

  The three frames: the kernel's two are the generated frame certificates; the reference's is its run (a fold of 138
  host operations, none of which writes an argument) with the result dropped.  The idealization rewrote nothing, so it
  preserves the kernel trivially.
-/
import proofs.«118937_j27711128994136_1_alg».proof.Defs
import proofs.«118937_j27711128994136_1_alg».proof.Proof.Gen.Kernel
import proofs.«118937_j27711128994136_1_alg».proof.Proof.Gen.Kernel.Frame
import proofs.«118937_j27711128994136_1_alg».proof.Proof.Gen.KernelIdeal
import proofs.«118937_j27711128994136_1_alg».proof.Proof.Gen.KernelIdeal.Frame
import proofs.«118937_j27711128994136_1_alg».proof.Proof.Gen.ReferenceIdeal
import proofs.«118937_j27711128994136_1_alg».proof.Proof.Gen.Pre_finite_inputs
import proofs.«118937_j27711128994136_1_alg».proof.Proof.KernelRun
import proofs.«118937_j27711128994136_1_alg».proof.Proof.RefRun
import proofs.«118937_j27711128994136_1_alg».proof.Proof.RefReads
import proofs.«118937_j27711128994136_1_alg».proof.Proof.Bridge
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel (hKernel := Cert.Kernel.Gen.facts) (hPre_finite_inputs := Cert.Pre_finite_inputs.Gen.facts) :=
  fun m ρ _ => Cert.Kernel.Gen.frame m ρ

/-- The idealized kernel runs and keeps its arguments. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The idealized reference runs and keeps its arguments: no operation of its fold writes one. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono
    (fun r h c => ⟨(h c Cert.ReferenceIdeal.main_arg0).trans (Cert.ReferenceIdeal.RefReads.kept_arg0 _),
      (h c Cert.ReferenceIdeal.main_arg1).trans (Cert.ReferenceIdeal.RefReads.kept_arg1 _),
      (h c Cert.ReferenceIdeal.main_arg2).trans (Cert.ReferenceIdeal.RefReads.kept_arg2 _),
      (h c Cert.ReferenceIdeal.main_arg3).trans (Cert.ReferenceIdeal.RefReads.kept_arg3 _),
      (h c Cert.ReferenceIdeal.main_arg4).trans (Cert.ReferenceIdeal.RefReads.kept_arg4 _),
      (h c Cert.ReferenceIdeal.main_arg5).trans (Cert.ReferenceIdeal.RefReads.kept_arg5 _),
      (h c Cert.ReferenceIdeal.main_arg6).trans (Cert.ReferenceIdeal.RefReads.kept_arg6 _)⟩)
    (Cert.ReferenceIdeal.RefRun.run (F := Ideal) m ρ)

/-- The ideal pass rewrote no operation. -/
theorem preserves : Cert.preserves_Kernel_KernelIdeal := trivial

/-- From memories that agree on the arguments both idealized programs run, keep their arguments, and end with the same
    result: the kernel's, as its sixteen segments leave it. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Gen.W16 m ρ c (Proc.devRef .tc Cert.KernelIdeal.main_v80),
    Cert.KernelIdeal.KRun.run_result m ρ, ?_⟩
  refine (θ_run Cert.ReferenceIdeal.defs _ _).mono (fun r h c => ⟨?_,
      (h c Cert.ReferenceIdeal.main_arg0).trans (Cert.ReferenceIdeal.RefReads.kept_arg0 _),
      (h c Cert.ReferenceIdeal.main_arg1).trans (Cert.ReferenceIdeal.RefReads.kept_arg1 _),
      (h c Cert.ReferenceIdeal.main_arg2).trans (Cert.ReferenceIdeal.RefReads.kept_arg2 _),
      (h c Cert.ReferenceIdeal.main_arg3).trans (Cert.ReferenceIdeal.RefReads.kept_arg3 _),
      (h c Cert.ReferenceIdeal.main_arg4).trans (Cert.ReferenceIdeal.RefReads.kept_arg4 _),
      (h c Cert.ReferenceIdeal.main_arg5).trans (Cert.ReferenceIdeal.RefReads.kept_arg5 _),
      (h c Cert.ReferenceIdeal.main_arg6).trans (Cert.ReferenceIdeal.RefReads.kept_arg6 _)⟩)
    (Cert.ReferenceIdeal.RefRun.run (F := Ideal) m' ρ')
  exact (h c Cert.ReferenceIdeal.main_v79).trans
    (Cert.Bridge.results_agree m ρ m' c (hagree c).1 (hagree c).2.1 (hagree c).2.2.1 (hagree c).2.2.2.1
      (hagree c).2.2.2.2.1 (hagree c).2.2.2.2.2.1 (hagree c).2.2.2.2.2.2)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
